-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S128 .f32) (main_arg22 : FVec F S128 .f32) (main_arg23 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg23
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg18 : FVec F S128x128 .f32) (main_arg19 : FVec F S128 .f32) (main_arg20 : FVec F S128 .f32) (main_arg21 : FVec F S128 .f32) (main_arg22 : FVec F S128 .f32) (main_arg23 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg18
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S128x128 .f32) (main_arg15 : FVec F S128x128 .f32) (main_arg16 : FVec F S128x128 .f32) (main_arg17 : FVec F S128x128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S131072x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128 .f32) (main_arg20 : FVec F S128 .f32) (main_arg21 : FVec F S128 .f32) (main_arg22 : FVec F S128 .f32) (main_arg23 : FVec F S128 .f32) (main_v13 : IVec S_ 1) (main_v16 : IVec S131072x128 1) : IVec S_ 1 :=
  let main_c_5 : IVec S_ 1 := constantI S_ 1 1#1
  let main_v17 : IVec S_ 1 := (fun x v => Host.reduce IntOp.andi x v reducesTo_S131072x128_S_d0_1 h_S_) main_v16 main_c_5
  let main_v18 : IVec S_ 1 := andi main_v13 main_v17
  let main_v19 : FVec F S131072x128 .f32 := Host.absf main_arg4
  let main_cst_6 : FVec F S_ .f32 := constant S_ .f32 0x7F800000#32
  let main_v20 : FVec F S131072x128 .f32 := broadcastInDim S131072x128 ![] bcast_S_S131072x128 main_cst_6
  let main_v21 : IVec S131072x128 1 := cmpf .olt main_v19 main_v20
  let main_c_7 : IVec S_ 1 := constantI S_ 1 1#1
  let main_v22 : IVec S_ 1 := (fun x v => Host.reduce IntOp.andi x v reducesTo_S131072x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S131072x128 .f32) (main_arg1 : FVec F S131072x128 .f32) (main_arg2 : FVec F S131072x128 .f32) (main_arg3 : FVec F S131072x128 .f32) (main_arg4 : FVec F S131072x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128 .f32) (main_arg20 : FVec F S128 .f32) (main_arg21 : FVec F S128 .f32) (main_arg22 : FVec F S128 .f32) (main_arg23 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S131072x128 .f32 := Host.absf main_arg3
  let main_cst_4 : FVec F S_ .f32 := constant S_ .f32 0x7F800000#32
  let main_v15 : FVec F S131072x128 .f32 := broadcastInDim S131072x128 ![] bcast_S_S131072x128 main_cst_4
  let main_v16 : IVec S131072x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S131072x128 : Shape := ⟨2, ![131072, 128]⟩
abbrev S128x128 : Shape := ⟨2, ![128, 128]⟩
abbrev S128 : Shape := ⟨1, ![128]⟩
abbrev S128x640 : Shape := ⟨2, ![128, 640]⟩
abbrev S384x640 : Shape := ⟨2, ![384, 640]⟩
abbrev S640 : Shape := ⟨1, ![640]⟩
abbrev S1x640 : Shape := ⟨2, ![1, 640]⟩
abbrev S2048x128 : Shape := ⟨2, ![2048, 128]⟩
abbrev S2048x384 : Shape := ⟨2, ![2048, 384]⟩
abbrev S2048x640 : Shape := ⟨2, ![2048, 640]⟩

abbrev nBuf : Space → Nat
  | .hbm => 33
  | .vmem => 16
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S131072x128, .f32⟩
  | .hbm, ⟨4, _⟩ => ⟨S131072x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128x640, .f32⟩
  | .hbm, ⟨25, _⟩ => ⟨S128x640, .f32⟩
  | .hbm, ⟨26, _⟩ => ⟨S128x640, .f32⟩
  | .hbm, ⟨27, _⟩ => ⟨S384x640, .f32⟩
  | .hbm, ⟨28, _⟩ => ⟨S384x640, .bf16⟩
  | .hbm, ⟨29, _⟩ => ⟨S640, .f32⟩
  | .hbm, ⟨30, _⟩ => ⟨S1x640, .f32⟩
  | .hbm, ⟨31, _⟩ => ⟨S131072x128, .f32⟩
  | .hbm, ⟨32, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S384x640, .bf16⟩
  | .local _ .vmem, ⟨11, _⟩ => ⟨S1x640, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7_0 : Ref sig .tc := ⟨.hbm, 31, rfl⟩
abbrev main_v7_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S384x640 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S128x128_S128x128_S128x128_S128x128_S128x128_S128x640_d1 : Shape.Concatenates [S128x128, S128x128, S128x128, S128x128, S128x128] S128x640 1
  concatenates_S128x640_S128x640_S128x640_S384x640_d0 : Shape.Concatenates [S128x640, S128x640, S128x640] S384x640 0
  bitsLt_bf16_f32 : FTy.bits .bf16 < FTy.bits .f32
  concatenates_S128_S128_S128_S128_S128_S640_d0 : Shape.Concatenates [S128, S128, S128, S128, S128] S640 0
  shapeCasts_S640_S1x640 : S640.ShapeCasts S1x640
  inb_S2048x128_S2048x128_0_0 : ∀ a, (![0, 0] : Fin 2 → Nat) a + S2048x128.size a ≤ S2048x128.size a
  h_S2048x128 : 0 < S2048x128.numel
  concatenates_S2048x128_S2048x128_S2048x128_S2048x384_d1 : Shape.Concatenates [S2048x128, S2048x128, S2048x128] S2048x384 1
  inb_S384x640_S384x640_0_0 : ∀ a, (![0, 0] : Fin 2 → Nat) a + S384x640.size a ≤ S384x640.size a
  h_S384x640 : 0 < S384x640.numel
  shapeCasts_S384x640_S384x640 : S384x640.ShapeCasts S384x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  slices_S2048x640_o0_0_S2048x128 : S2048x640.Slices ![0, 0] S2048x128
  slices_S2048x640_o0_128_S2048x128 : S2048x640.Slices ![0, 128] S2048x128
  slices_S2048x640_o0_256_S2048x128 : S2048x640.Slices ![0, 256] S2048x128
  slices_S2048x640_o0_384_S2048x128 : S2048x640.Slices ![0, 384] S2048x128
  slices_S2048x640_o0_512_S2048x128 : S2048x640.Slices ![0, 512] S2048x128
  dot_S2048x384_S384x640_S2048x640_1_0_0_1_n_n_wf : DotDims.WF S2048x384 S384x640 S2048x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S131072x128.size a
  hwx0_3 : ∀ i : grid0.Coords, EltTy.bits .f32 = 32 ∨ (Rect.block (s := S131072x128) S2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S131072x128.size a
  hwx0_4 : ∀ i : grid0.Coords, EltTy.bits .f32 = 32 ∨ (Rect.block (s := S131072x128) S2048x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x640.size a ≤ S384x640.size a
  hwx0_5 : ∀ i : grid0.Coords, EltTy.bits .bf16 = 32 ∨ (Rect.block (s := S384x640) S384x640.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x640.size a ≤ S1x640.size a
  hwx0_6 : ∀ i : grid0.Coords, EltTy.bits .f32 = 32 ∨ (Rect.block (s := S1x640) S1x640.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S131072x128.size a
  hwx0_7 : ∀ i : grid0.Coords, EltTy.bits .f32 = 32 ∨ (Rect.block (s := S131072x128) S2048x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S131072x128.size a
  hwx0_8 : ∀ i : grid0.Coords, EltTy.bits .f32 = 32 ∨ (Rect.block (s := S131072x128) S2048x128.size (cc0_transform_8 i) (hinb0_8 i)).WholeWords (EltTy.packing .f32)

variable [Facts₀]

def dot_S2048x384_S384x640_S2048x640_1_0_0_1_n_n : DotDims S2048x384 S384x640 S2048x640 where
  lhsContracting := [1]
  rhsContracting := [0]
  lhsNonContracting := [0]
  rhsNonContracting := [1]
  lhsBatch := []
  rhsBatch := []
  wf := dot_S2048x384_S384x640_S2048x640_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S384x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S2048x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 103
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S131072x128, .f32⟩
  | .hbm, ⟨4, _⟩ => ⟨S131072x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S131072x128, .f32⟩
  | .hbm, ⟨28, _⟩ => ⟨S131072x128, .f32⟩
  | .hbm, ⟨29, _⟩ => ⟨S1x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S_, .f32⟩
  | .hbm, ⟨35, _⟩ => ⟨S131072x128, .f32⟩
  | .hbm, ⟨36, _⟩ => ⟨S131072x128, .f32⟩
  | .hbm, ⟨37, _⟩ => ⟨S_, .f32⟩
  | .hbm, ⟨38, _⟩ => ⟨S131072x128, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S1x128, .f32⟩
  | .hbm, ⟨46, _⟩ => ⟨S131072x128, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S_, .f32⟩
  | .hbm, ⟨51, _⟩ => ⟨S131072x128, .f32⟩
  | .hbm, ⟨52, _⟩ => ⟨S131072x128, .f32⟩
  | .hbm, ⟨53, _⟩ => ⟨S_, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S1x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S_, .f32⟩
  | .hbm, ⟨66, _⟩ => ⟨S131072x128, .f32⟩
  | .hbm, ⟨67, _⟩ => ⟨S131072x128, .f32⟩
  | .hbm, ⟨68, _⟩ => ⟨S_, .f32⟩
  | .hbm, ⟨69, _⟩ => ⟨S131072x128, .f32⟩
  | .hbm, ⟨70, _⟩ => ⟨S131072x128, .f32⟩
  | .hbm, ⟨71, _⟩ => ⟨S131072x128, .f32⟩
  | .hbm, ⟨72, _⟩ => ⟨S131072x128, .f32⟩
  | .hbm, ⟨73, _⟩ => ⟨S131072x128, .f32⟩
  | .hbm, ⟨74, _⟩ => ⟨S131072x128, .f32⟩
  | .hbm, ⟨75, _⟩ => ⟨S131072x128, .f32⟩
  | .hbm, ⟨76, _⟩ => ⟨S1x128, .f32⟩
  | .hbm, ⟨77, _⟩ => ⟨S131072x128, .f32⟩
  | .hbm, ⟨78, _⟩ => ⟨S131072x128, .f32⟩
  | .hbm, ⟨79, _⟩ => ⟨S131072x128, .f32⟩
  | .hbm, ⟨80, _⟩ => ⟨S131072x128, .f32⟩
  | .hbm, ⟨81, _⟩ => ⟨S_, .f32⟩
  | .hbm, ⟨82, _⟩ => ⟨S131072x128, .f32⟩
  | .hbm, ⟨83, _⟩ => ⟨S131072x128, .f32⟩
  | .hbm, ⟨84, _⟩ => ⟨S_, .f32⟩
  | .hbm, ⟨85, _⟩ => ⟨S131072x128, .f32⟩
  | .hbm, ⟨86, _⟩ => ⟨S131072x128, .f32⟩
  | .hbm, ⟨87, _⟩ => ⟨S131072x128, .f32⟩
  | .hbm, ⟨88, _⟩ => ⟨S131072x128, .f32⟩
  | .hbm, ⟨89, _⟩ => ⟨S131072x128, .f32⟩
  | .hbm, ⟨90, _⟩ => ⟨S131072x128, .f32⟩
  | .hbm, ⟨91, _⟩ => ⟨S131072x128, .f32⟩
  | .hbm, ⟨92, _⟩ => ⟨S1x128, .f32⟩
  | .hbm, ⟨93, _⟩ => ⟨S131072x128, .f32⟩
  | .hbm, ⟨94, _⟩ => ⟨S131072x128, .f32⟩
  | .hbm, ⟨95, _⟩ => ⟨S131072x128, .f32⟩
  | .hbm, ⟨96, _⟩ => ⟨S131072x128, .f32⟩
  | .hbm, ⟨97, _⟩ => ⟨S131072x128, .f32⟩
  | .hbm, ⟨98, _⟩ => ⟨S131072x128, .f32⟩
  | .hbm, ⟨99, _⟩ => ⟨S131072x128, .f32⟩
  | .hbm, ⟨100, _⟩ => ⟨S131072x128, .f32⟩
  | .hbm, ⟨101, _⟩ => ⟨S131072x128, .f32⟩
  | .hbm, ⟨102, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_cst_0 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_v25 : Ref sig .tc := ⟨.hbm, 52, rfl⟩
abbrev main_cst_2 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_5 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.CellFrame.lean ====
/-
  The frame of the tree-LSTM cell kernel's program: every weakly fair execution of @main ends, nothing faults, and the
  twenty-four argument arrays end as they were launched; and, for the value claim, every output array named after
  the run.

  @main is seven host operations (the fourteen weight matrices joined into one 384×640 matrix and rounded, the five
  bias rows joined into one 1×640 row) followed by one pipelined region of 64 grid points.  At point t the region
  stages rows 2048·t … 2048·t + 2047 of the five node arrays, the whole fused matrix and the whole fused bias row
  (both staged once: their block never moves), runs the body, and writes the two 2048×128 result blocks back.
  The body loads its seven input blocks whole, and stores each output block whole (after a dead load of it): what
  an output's staging buffer holds afterwards is the one stored payload, whatever it held before.  None of the seven
  host operations writes an argument, so the region finds every argument as launched.
-/
import proofs.«122884_j44976897523967_2_alg».proof.Proof.Gen.Kernel.Launch
import proofs.«122884_j44976897523967_2_alg».proof.Proof.Gen.Kernel.Skeleton
import proofs.«122884_j44976897523967_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) := StableHlo.after hostOps0 (fun b => m (c, b)) b

/-- None of the seven host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the seven host operations writes is found as launched: each operation writes one named
    intermediate (`main_v0` … `main_v6`), and an argument is none of them. -/
local macro "keeps_arg" : tactic => `(tactic|
  exact StableHlo.after_of_forall_not_mem _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide))))

theorem V_main_arg0 (c : Dev nD) : V m c main_arg0 = m ((c : Thread nD τ).loc main_arg0) := by keeps_arg
theorem V_main_arg1 (c : Dev nD) : V m c main_arg1 = m ((c : Thread nD τ).loc main_arg1) := by keeps_arg
theorem V_main_arg2 (c : Dev nD) : V m c main_arg2 = m ((c : Thread nD τ).loc main_arg2) := by keeps_arg
theorem V_main_arg3 (c : Dev nD) : V m c main_arg3 = m ((c : Thread nD τ).loc main_arg3) := by keeps_arg
theorem V_main_arg4 (c : Dev nD) : V m c main_arg4 = m ((c : Thread nD τ).loc main_arg4) := by keeps_arg
theorem V_main_arg5 (c : Dev nD) : V m c main_arg5 = m ((c : Thread nD τ).loc main_arg5) := by keeps_arg
theorem V_main_arg6 (c : Dev nD) : V m c main_arg6 = m ((c : Thread nD τ).loc main_arg6) := by keeps_arg
theorem V_main_arg7 (c : Dev nD) : V m c main_arg7 = m ((c : Thread nD τ).loc main_arg7) := by keeps_arg
theorem V_main_arg8 (c : Dev nD) : V m c main_arg8 = m ((c : Thread nD τ).loc main_arg8) := by keeps_arg
theorem V_main_arg9 (c : Dev nD) : V m c main_arg9 = m ((c : Thread nD τ).loc main_arg9) := by keeps_arg
theorem V_main_arg10 (c : Dev nD) : V m c main_arg10 = m ((c : Thread nD τ).loc main_arg10) := by keeps_arg
theorem V_main_arg11 (c : Dev nD) : V m c main_arg11 = m ((c : Thread nD τ).loc main_arg11) := by keeps_arg
theorem V_main_arg12 (c : Dev nD) : V m c main_arg12 = m ((c : Thread nD τ).loc main_arg12) := by keeps_arg
theorem V_main_arg13 (c : Dev nD) : V m c main_arg13 = m ((c : Thread nD τ).loc main_arg13) := by keeps_arg
theorem V_main_arg14 (c : Dev nD) : V m c main_arg14 = m ((c : Thread nD τ).loc main_arg14) := by keeps_arg
theorem V_main_arg15 (c : Dev nD) : V m c main_arg15 = m ((c : Thread nD τ).loc main_arg15) := by keeps_arg
theorem V_main_arg16 (c : Dev nD) : V m c main_arg16 = m ((c : Thread nD τ).loc main_arg16) := by keeps_arg
theorem V_main_arg17 (c : Dev nD) : V m c main_arg17 = m ((c : Thread nD τ).loc main_arg17) := by keeps_arg
theorem V_main_arg18 (c : Dev nD) : V m c main_arg18 = m ((c : Thread nD τ).loc main_arg18) := by keeps_arg
theorem V_main_arg19 (c : Dev nD) : V m c main_arg19 = m ((c : Thread nD τ).loc main_arg19) := by keeps_arg
theorem V_main_arg20 (c : Dev nD) : V m c main_arg20 = m ((c : Thread nD τ).loc main_arg20) := by keeps_arg
theorem V_main_arg21 (c : Dev nD) : V m c main_arg21 = m ((c : Thread nD τ).loc main_arg21) := by keeps_arg
theorem V_main_arg22 (c : Dev nD) : V m c main_arg22 = m ((c : Thread nD τ).loc main_arg22) := by keeps_arg
theorem V_main_arg23 (c : Dev nD) : V m c main_arg23 = m ((c : Thread nD τ).loc main_arg23) := by keeps_arg

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state satisfying the library's frame post has the twenty-four arguments as launched: a staged argument
    is an input window's array, kept by the run; every other argument is an unscoped buffer no window stages, kept by
    the post's second clause; and the region found each as launched. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c)⟩

/-- So a run to the library's frame post gives the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => kept_of m dats hA r h c) h

/-! ## The body's accesses -/

abbrev rRows : Rect S2048x128 := Rect.unit (s := S2048x128) ![0, 0] S2048x128.size inb_S2048x128_S2048x128_0_0
abbrev rMat : Rect S384x640 := Rect.unit (s := S384x640) ![0, 0] S384x640.size inb_S384x640_S384x640_0_0
abbrev rBias : Rect S1x640 := Rect.unit (s := S1x640) ![0, 0] S1x640.size inb_S1x640_S1x640_0_0

/-! ## What the body leaves in each output window's buffer -/

/-- The hidden-state output's staging buffer after the body, from the input blocks: its one whole-block store. -/
def out0_7 (x0 x1 x2 x3 x4 : Vec F S2048x128 .f32) (x5 : Vec F S384x640 .bf16) (x6 : Vec F S1x640 .f32) : Vec F S2048x128 .f32 :=
  View.canon [⟨rRows, k0_pay3 (View.ld x0 rRows) (View.ld x1 rRows) (View.ld x2 rRows) (View.ld x3 rRows) (View.ld x4 rRows) (View.ld x5 rMat) (View.ld x6 rBias)⟩]

/-- The cell-state output's staging buffer after the body. -/
def out0_8 (x0 x1 x2 x3 x4 : Vec F S2048x128 .f32) (x5 : Vec F S384x640 .bf16) (x6 : Vec F S1x640 .f32) : Vec F S2048x128 .f32 :=
  View.canon [⟨rRows, k0_pay2 (View.ld x0 rRows) (View.ld x1 rRows) (View.ld x2 rRows) (View.ld x3 rRows) (View.ld x4 rRows) (View.ld x5 rMat) (View.ld x6 rBias)⟩]

/-- One whole-block store covers the block. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 4000000 in
/-- The body on whole staging memrefs, the inputs' at read contents `xW` and the outputs' at anything, runs to the
    continuation holding the inputs' as they were and each output's at its stored payload. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S384x640 .bf16) (harg6 : arg6.IsWhole) (arg7 : Memref sig .tc .vmem S1x640 .f32) (harg7 : arg7.IsWhole) (arg8 : Memref sig .tc .vmem S2048x128 .f32) (harg8 : arg8.IsWhole) (arg9 : Memref sig .tc .vmem S2048x128 .f32) (harg9 : arg9.IsWhole)
    (x0 x1 x2 x3 x4 : Vec F S2048x128 .f32) (x5 : Vec F S384x640 .bf16) (x6 : Vec F S1x640 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__treelstm_kernel_fused i arg1 harg1 arg2 harg2 arg3 harg3 arg4 harg4 arg5 harg5 arg6 harg6 arg7 harg7 arg8 harg8 arg9 harg9) K := by
  simp only [cc0__treelstm_kernel_fused_eq_skeleton]; unfold cc0__treelstm_kernel_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The pipeline's proof data -/

/-- The proof data of the one pipeline on core `c`: the arrays as the region finds them; after the body at point
    `t` each input's buffer at its block and each output's at its payload of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twenty-four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.Kernel.Fr

end
-- ==== Proof.CellFrameIdeal.lean ====
/-
  The frame of the tree-LSTM cell kernel's program: every weakly fair execution of @main ends, nothing faults, and the
  twenty-four argument arrays end as they were launched; and, for the value claim, every output array named after
  the run.

  @main is seven host operations (the fourteen weight matrices joined into one 384×640 matrix and rounded, the five
  bias rows joined into one 1×640 row) followed by one pipelined region of 64 grid points.  At point t the region
  stages rows 2048·t … 2048·t + 2047 of the five node arrays, the whole fused matrix and the whole fused bias row
  (both staged once: their block never moves), runs the body, and writes the two 2048×128 result blocks back.
  The body loads its seven input blocks whole, and stores each output block whole (after a dead load of it): what
  an output's staging buffer holds afterwards is the one stored payload, whatever it held before.  None of the seven
  host operations writes an argument, so the region finds every argument as launched.
-/
import proofs.«122884_j44976897523967_2_alg».proof.Proof.Gen.KernelIdeal.Launch
import proofs.«122884_j44976897523967_2_alg».proof.Proof.Gen.KernelIdeal.Skeleton
import proofs.«122884_j44976897523967_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the seven host operations. -/
abbrev V (c : Dev nD) (b : Ref sig .tc) : Buf (Elt F) ((c : Thread nD τ).loc b) := StableHlo.after hostOps0 (fun b => m (c, b)) b

/-- None of the seven host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the seven host operations writes is found as launched: each operation writes one named
    intermediate (`main_v0` … `main_v6`), and an argument is none of them. -/
local macro "keeps_arg" : tactic => `(tactic|
  exact StableHlo.after_of_forall_not_mem _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide))))

theorem V_main_arg0 (c : Dev nD) : V m c main_arg0 = m ((c : Thread nD τ).loc main_arg0) := by keeps_arg
theorem V_main_arg1 (c : Dev nD) : V m c main_arg1 = m ((c : Thread nD τ).loc main_arg1) := by keeps_arg
theorem V_main_arg2 (c : Dev nD) : V m c main_arg2 = m ((c : Thread nD τ).loc main_arg2) := by keeps_arg
theorem V_main_arg3 (c : Dev nD) : V m c main_arg3 = m ((c : Thread nD τ).loc main_arg3) := by keeps_arg
theorem V_main_arg4 (c : Dev nD) : V m c main_arg4 = m ((c : Thread nD τ).loc main_arg4) := by keeps_arg
theorem V_main_arg5 (c : Dev nD) : V m c main_arg5 = m ((c : Thread nD τ).loc main_arg5) := by keeps_arg
theorem V_main_arg6 (c : Dev nD) : V m c main_arg6 = m ((c : Thread nD τ).loc main_arg6) := by keeps_arg
theorem V_main_arg7 (c : Dev nD) : V m c main_arg7 = m ((c : Thread nD τ).loc main_arg7) := by keeps_arg
theorem V_main_arg8 (c : Dev nD) : V m c main_arg8 = m ((c : Thread nD τ).loc main_arg8) := by keeps_arg
theorem V_main_arg9 (c : Dev nD) : V m c main_arg9 = m ((c : Thread nD τ).loc main_arg9) := by keeps_arg
theorem V_main_arg10 (c : Dev nD) : V m c main_arg10 = m ((c : Thread nD τ).loc main_arg10) := by keeps_arg
theorem V_main_arg11 (c : Dev nD) : V m c main_arg11 = m ((c : Thread nD τ).loc main_arg11) := by keeps_arg
theorem V_main_arg12 (c : Dev nD) : V m c main_arg12 = m ((c : Thread nD τ).loc main_arg12) := by keeps_arg
theorem V_main_arg13 (c : Dev nD) : V m c main_arg13 = m ((c : Thread nD τ).loc main_arg13) := by keeps_arg
theorem V_main_arg14 (c : Dev nD) : V m c main_arg14 = m ((c : Thread nD τ).loc main_arg14) := by keeps_arg
theorem V_main_arg15 (c : Dev nD) : V m c main_arg15 = m ((c : Thread nD τ).loc main_arg15) := by keeps_arg
theorem V_main_arg16 (c : Dev nD) : V m c main_arg16 = m ((c : Thread nD τ).loc main_arg16) := by keeps_arg
theorem V_main_arg17 (c : Dev nD) : V m c main_arg17 = m ((c : Thread nD τ).loc main_arg17) := by keeps_arg
theorem V_main_arg18 (c : Dev nD) : V m c main_arg18 = m ((c : Thread nD τ).loc main_arg18) := by keeps_arg
theorem V_main_arg19 (c : Dev nD) : V m c main_arg19 = m ((c : Thread nD τ).loc main_arg19) := by keeps_arg
theorem V_main_arg20 (c : Dev nD) : V m c main_arg20 = m ((c : Thread nD τ).loc main_arg20) := by keeps_arg
theorem V_main_arg21 (c : Dev nD) : V m c main_arg21 = m ((c : Thread nD τ).loc main_arg21) := by keeps_arg
theorem V_main_arg22 (c : Dev nD) : V m c main_arg22 = m ((c : Thread nD τ).loc main_arg22) := by keeps_arg
theorem V_main_arg23 (c : Dev nD) : V m c main_arg23 = m ((c : Thread nD τ).loc main_arg23) := by keeps_arg

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (an unfetched
    window's block index has not moved), for any proof data whose array is the region-entry contents and whose body
    leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A final state satisfying the library's frame post has the twenty-four arguments as launched: a staged argument
    is an input window's array, kept by the run; every other argument is an unscoped buffer no window stages, kept by
    the post's second clause; and the region found each as launched. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c)⟩

/-- So a run to the library's frame post gives the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun r h c => kept_of m dats hA r h c) h

/-! ## The body's accesses -/

abbrev rRows : Rect S2048x128 := Rect.unit (s := S2048x128) ![0, 0] S2048x128.size inb_S2048x128_S2048x128_0_0
abbrev rMat : Rect S384x640 := Rect.unit (s := S384x640) ![0, 0] S384x640.size inb_S384x640_S384x640_0_0
abbrev rBias : Rect S1x640 := Rect.unit (s := S1x640) ![0, 0] S1x640.size inb_S1x640_S1x640_0_0

/-! ## What the body leaves in each output window's buffer -/

/-- The hidden-state output's staging buffer after the body, from the input blocks: its one whole-block store. -/
def out0_7 (x0 x1 x2 x3 x4 : Vec F S2048x128 .f32) (x5 : Vec F S384x640 .bf16) (x6 : Vec F S1x640 .f32) : Vec F S2048x128 .f32 :=
  View.canon [⟨rRows, k0_pay3 (View.ld x0 rRows) (View.ld x1 rRows) (View.ld x2 rRows) (View.ld x3 rRows) (View.ld x4 rRows) (View.ld x5 rMat) (View.ld x6 rBias)⟩]

/-- The cell-state output's staging buffer after the body. -/
def out0_8 (x0 x1 x2 x3 x4 : Vec F S2048x128 .f32) (x5 : Vec F S384x640 .bf16) (x6 : Vec F S1x640 .f32) : Vec F S2048x128 .f32 :=
  View.canon [⟨rRows, k0_pay2 (View.ld x0 rRows) (View.ld x1 rRows) (View.ld x2 rRows) (View.ld x3 rRows) (View.ld x4 rRows) (View.ld x5 rMat) (View.ld x6 rBias)⟩]

/-- One whole-block store covers the block. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 4000000 in
/-- The body on whole staging memrefs, the inputs' at read contents `xW` and the outputs' at anything, runs to the
    continuation holding the inputs' as they were and each output's at its stored payload. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S384x640 .bf16) (harg6 : arg6.IsWhole) (arg7 : Memref sig .tc .vmem S1x640 .f32) (harg7 : arg7.IsWhole) (arg8 : Memref sig .tc .vmem S2048x128 .f32) (harg8 : arg8.IsWhole) (arg9 : Memref sig .tc .vmem S2048x128 .f32) (harg9 : arg9.IsWhole)
    (x0 x1 x2 x3 x4 : Vec F S2048x128 .f32) (x5 : Vec F S384x640 .bf16) (x6 : Vec F S1x640 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6) ∗ owns (c : Thread nD τ) arg9 fullShare (out0_8 x0 x1 x2 x3 x4 x5 x6)) -∗ K ⟨⟩))
      ⊢ wp frame (wpE (defs₀ (F := F)) Variants.none c none) E (cc0__treelstm_kernel_fused i arg1 harg1 arg2 harg2 arg3 harg3 arg4 harg4 arg5 harg5 arg6 harg6 arg7 harg7 arg8 harg8 arg9 harg9) K := by
  simp only [cc0__treelstm_kernel_fused_eq_skeleton]; unfold cc0__treelstm_kernel_fused_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover_rows _)
  iexists _; isplitr
  swap; · iexact H8
  ipureintro
  exact View.read_writes_eq_canon _ _ _ (cover_rows _)

/-! ## The pipeline's proof data -/

/-- The proof data of the one pipeline on core `c`: the arrays as the region finds them; after the body at point
    `t` each input's buffer at its block and each output's at its payload of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out0_7 (iblk m c 0 t) (iblk m c 1 t) (iblk m c 2 t) (iblk m c 3 t) (iblk m c 4 t) (iblk m c 5 t) (iblk m c 6 t)
    | ⟨8, _⟩ => out0_8 (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main terminates, and every final state has
    every array of the pipeline at what the library computes from the proof data and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its twenty-four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.KernelIdeal.Fr

end
-- ==== Proof.Spec.lean ====
/-
  The binary tree-LSTM cell, as plain functions on the extended reals.

  A node has a parent input row p, two child hidden rows hl, hr and two child cell rows cl, cr, each of width 128.
  Five gates (input, left forget, right forget, output, update; numbered 0..4) each have a pre-activation
      pre_g(i, j) = ((Σ_k p(i,k)·Wp_g(k,j) + Σ_k hl(i,k)·Wl_g(k,j)) + Σ_k hr(i,k)·Wr_g(k,j)) + b_g(j),
  and the cell is
      c = σ(pre_0)·tanh(pre_4) + σ(pre_1)·cl + σ(pre_2)·cr,        h = σ(pre_3)·tanh(c).
  That is the grouping of three separate products per gate ("split" form below).  The "fused" form does one product
  of the row [p | hl | hr] (width 384) with one 384×640 matrix whose (k, 128·g + j) entry is the weight of gate g for
  source k / 128 at (k % 128, j), adds one bias row of width 640, and slices the five gates out of the 640 columns.
  The weights are a family Ws : source (0 = p, 1 = hl, 2 = hr) → gate → 128×128 matrix; the biases bs : gate → row.
-/
import Idealize.ShloMosaic.PureOps.Ideal
import Idealize.ShloMosaic.Lib.ValueIdx

noncomputable section

namespace Cert.TreeCell

open Idealize.ShloMosaic

/-- One gate's pre-activation at node `i`, column `j`: three products summed left to right, then the bias. -/
def gatePre {n : Nat} (p hl hr : Fin n → Fin 128 → EReal) (Wp Wl Wr : Fin 128 → Fin 128 → EReal) (b : Fin 128 → EReal)
    (i : Fin n) (j : Fin 128) : EReal :=
  ((∑ k : Fin 128, p i k * Wp k j + ∑ k : Fin 128, hl i k * Wl k j) + ∑ k : Fin 128, hr i k * Wr k j) + b j

/-- Gate `g`'s pre-activation from the weight family. -/
def pre {n : Nat} (Ws : Fin 3 → Fin 5 → Fin 128 → Fin 128 → EReal) (bs : Fin 5 → Fin 128 → EReal)
    (p hl hr : Fin n → Fin 128 → EReal) (g : Fin 5) (i : Fin n) (j : Fin 128) : EReal :=
  gatePre p hl hr (Ws 0 g) (Ws 1 g) (Ws 2 g) (bs g) i j

/-- The new cell state, split form. -/
def cellC {n : Nat} (Ws : Fin 3 → Fin 5 → Fin 128 → Fin 128 → EReal) (bs : Fin 5 → Fin 128 → EReal)
    (p hl hr cl cr : Fin n → Fin 128 → EReal) (i : Fin n) (j : Fin 128) : EReal :=
  (Ideal.logistic (pre Ws bs p hl hr 0 i j) * Ideal.tanh (pre Ws bs p hl hr 4 i j)
    + Ideal.logistic (pre Ws bs p hl hr 1 i j) * cl i j)
    + Ideal.logistic (pre Ws bs p hl hr 2 i j) * cr i j

/-- The new hidden state, split form. -/
def cellH {n : Nat} (Ws : Fin 3 → Fin 5 → Fin 128 → Fin 128 → EReal) (bs : Fin 5 → Fin 128 → EReal)
    (p hl hr cl cr : Fin n → Fin 128 → EReal) (i : Fin n) (j : Fin 128) : EReal :=
  Ideal.logistic (pre Ws bs p hl hr 3 i j) * Ideal.tanh (cellC Ws bs p hl hr cl cr i j)

/-! ## The fused form -/

/-- Column `j` of gate `g` among the 640 fused columns. -/
def col (g : Fin 5) (j : Fin 128) : Fin 640 := ⟨128 * g.val + j.val, by have := g.isLt; have := j.isLt; omega⟩

/-- The joined row [p | hl | hr] at node `i`. -/
def joinX {n : Nat} (p hl hr : Fin n → Fin 128 → EReal) (i : Fin n) (k : Fin 384) : EReal :=
  if h0 : k.val < 128 then p i ⟨k.val, h0⟩
  else if h1 : k.val < 256 then hl i ⟨k.val - 128, by omega⟩
  else hr i ⟨k.val - 256, by have := k.isLt; omega⟩

/-- The fused 384×640 weight matrix: entry (k, c) is source k / 128's weight of gate c / 128 at (k % 128, c % 128). -/
def joinW (Ws : Fin 3 → Fin 5 → Fin 128 → Fin 128 → EReal) (k : Fin 384) (c : Fin 640) : EReal :=
  Ws ⟨k.val / 128, by have := k.isLt; omega⟩ ⟨c.val / 128, by have := c.isLt; omega⟩
    ⟨k.val % 128, Nat.mod_lt _ (by norm_num)⟩ ⟨c.val % 128, Nat.mod_lt _ (by norm_num)⟩

/-- The fused bias row of width 640. -/
def joinB (bs : Fin 5 → Fin 128 → EReal) (c : Fin 640) : EReal :=
  bs ⟨c.val / 128, by have := c.isLt; omega⟩ ⟨c.val % 128, Nat.mod_lt _ (by norm_num)⟩

/-- The fused pre-activation: one product of width 384, then the bias. -/
def fusedPre {n : Nat} (x : Fin n → Fin 384 → EReal) (Wb : Fin 384 → Fin 640 → EReal) (bb : Fin 640 → EReal)
    (i : Fin n) (c : Fin 640) : EReal :=
  (∑ k : Fin 384, x i k * Wb k c) + bb c

/-- The new cell state, fused form, over any joined row, fused matrix and fused bias. -/
def fusedC {n : Nat} (x : Fin n → Fin 384 → EReal) (Wb : Fin 384 → Fin 640 → EReal) (bb : Fin 640 → EReal)
    (cl cr : Fin n → Fin 128 → EReal) (i : Fin n) (j : Fin 128) : EReal :=
  (Ideal.logistic (fusedPre x Wb bb i (col 0 j)) * Ideal.tanh (fusedPre x Wb bb i (col 4 j))
    + Ideal.logistic (fusedPre x Wb bb i (col 1 j)) * cl i j)
    + Ideal.logistic (fusedPre x Wb bb i (col 2 j)) * cr i j

/-- The new hidden state, fused form. -/
def fusedH {n : Nat} (x : Fin n → Fin 384 → EReal) (Wb : Fin 384 → Fin 640 → EReal) (bb : Fin 640 → EReal)
    (cl cr : Fin n → Fin 128 → EReal) (i : Fin n) (j : Fin 128) : EReal :=
  Ideal.logistic (fusedPre x Wb bb i (col 3 j)) * Ideal.tanh (fusedC x Wb bb cl cr i j)

/-! ## Arrays as functions of coordinates, and the whole-array results -/

/-- A two-axis array of extended reals. -/
abbrev A2 (a b : Nat) : Type := (⟨2, ![a, b]⟩ : Shape).Idx → EReal
/-- A one-axis array of extended reals. -/
abbrev A1 (b : Nat) : Type := (⟨1, ![b]⟩ : Shape).Idx → EReal

/-- A two-axis array read by its two coordinates. -/
def mat {a b : Nat} (x : A2 a b) : Fin a → Fin b → EReal := fun i j => x (ValueIdx.ix2 i j)
/-- A one-axis array read by its coordinate. -/
def vec {b : Nat} (x : A1 b) : Fin b → EReal := fun j => x (ValueIdx.ix1 j)

/-- The weight family from the fourteen matrices, in the order the cell's parameters are listed: the parent's
    weight of each gate (data, forget, out, in), then the left and right child's; the parent's forget weight serves
    both forget gates. -/
def weightFam (wData wDataL wDataR wForget wFll wFlr wFrl wFrr wOut wOutL wOutR wIn wInL wInR : Fin 128 → Fin 128 → EReal) :
    Fin 3 → Fin 5 → Fin 128 → Fin 128 → EReal :=
  ![![wData, wForget, wForget, wOut, wIn], ![wDataL, wFll, wFrl, wOutL, wInL], ![wDataR, wFlr, wFrr, wOutR, wInR]]

/-- The bias family from the five rows. -/
def biasFam (bData bFl bFr bOut bIn : Fin 128 → EReal) : Fin 5 → Fin 128 → EReal := ![bData, bFl, bFr, bOut, bIn]

/-- The new cell state of all N = 131072 nodes as one array of the twenty-four argument arrays (in the programs'
    argument order: hl, cl, hr, cr, p, the fourteen weights, the five biases). -/
def outC (hl cl hr cr p : A2 131072 128) (wData wDataL wDataR wForget wFll wFlr wFrl wFrr wOut wOutL wOutR wIn wInL wInR : A2 128 128)
    (bData bFl bFr bOut bIn : A1 128) : A2 131072 128 := fun idx =>
  cellC (weightFam (mat wData) (mat wDataL) (mat wDataR) (mat wForget) (mat wFll) (mat wFlr) (mat wFrl) (mat wFrr)
      (mat wOut) (mat wOutL) (mat wOutR) (mat wIn) (mat wInL) (mat wInR))
    (biasFam (vec bData) (vec bFl) (vec bFr) (vec bOut) (vec bIn)) (mat p) (mat hl) (mat hr) (mat cl) (mat cr) (idx 0) (idx 1)

/-- The new hidden state of all nodes, likewise. -/
def outH (hl cl hr cr p : A2 131072 128) (wData wDataL wDataR wForget wFll wFlr wFrl wFrr wOut wOutL wOutR wIn wInL wInR : A2 128 128)
    (bData bFl bFr bOut bIn : A1 128) : A2 131072 128 := fun idx =>
  cellH (weightFam (mat wData) (mat wDataL) (mat wDataR) (mat wForget) (mat wFll) (mat wFlr) (mat wFrl) (mat wFrr)
      (mat wOut) (mat wOutL) (mat wOutR) (mat wIn) (mat wInL) (mat wInR))
    (biasFam (vec bData) (vec bFl) (vec bFr) (vec bOut) (vec bIn)) (mat p) (mat hl) (mat hr) (mat cl) (mat cr) (idx 0) (idx 1)

end Cert.TreeCell

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«122884_j44976897523967_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.CellPayload.lean ====
/-
  The tile's arithmetic read at an entry.

  One tile of 2048 nodes: the joined row [p | hl | hr] (width 384) times the fused 384×640 matrix, plus the bias row,
  gives the 2048×640 pre-activations; the five gates are the five bands of 128 columns; the new cell state is
  σ(i)·tanh(u) + σ(f_l)·c_l + σ(f_r)·c_r and the new hidden state σ(o)·tanh(c).  Each layout step (join along the columns,
  spread of the bias row down the rows, band of columns) reads one entry of its operand, and the product into the zero
  accumulator is the sum over the 384 joined positions.
-/
import proofs.«122884_j44976897523967_2_alg».proof.Proof.Gen.KernelIdeal.Skeleton
import proofs.«122884_j44976897523967_2_alg».proof.Proof.Spec
import proofs.«122884_j44976897523967_2_alg».proof.Proof.LibPlainDotFormats
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.CellValue

open Cert.KernelIdeal Cert.KernelIdeal.Gen Idealize.ShloMosaic Idealize.ShloMosaic.ValueIdx Cert.TreeCell

/-- The tile's product is a plain [2048, 384] × [384, 640] → [2048, 640] contraction. -/
theorem plainDot : Cert.LibPlainDot.Plain (A := 2048) (K := 384) (B := 640) dot_S2048x384_S384x640_S2048x640_1_0_0_1_n_n :=
  ⟨rfl, rfl, rfl, rfl, rfl, rfl⟩

/-- Three [2048, 128] arrays joined along the columns, read at (r, k): the first for k < 128, the second for
    128 ≤ k < 256, the third beyond. -/
theorem join_apply (a b c : FVec Ideal S2048x128 .bf16) (r : Fin 2048) (k : Fin 384) :
    concatenate S2048x384 1 [⟨S2048x128, a⟩, ⟨S2048x128, b⟩, ⟨S2048x128, c⟩]
        concatenates_S2048x128_S2048x128_S2048x128_S2048x384_d1 (ix2 r k)
      = joinX (mat a) (mat b) (mat c) r k := by
  unfold joinX
  by_cases h0 : k.val < 128
  · rw [dif_pos h0]
    refine concatenate_apply_piece 1 _ _ (ix2 r k) 0 (by simp) S2048x128 a rfl rfl 0 rfl (ix2 r ⟨k.val, h0⟩) ?_ ?_
    · intro d hd
      match d with
      | ⟨0, _⟩ => rfl
      | ⟨1, _⟩ => exact absurd rfl hd
    · show 0 + k.val = k.val
      omega
  · rw [dif_neg h0]
    by_cases h1 : k.val < 256
    · rw [dif_pos h1]
      refine concatenate_apply_piece 1 _ _ (ix2 r k) 1 (by simp) S2048x128 b rfl rfl 128 rfl (ix2 r ⟨k.val - 128, by omega⟩) ?_ ?_
      · intro d hd
        match d with
        | ⟨0, _⟩ => rfl
        | ⟨1, _⟩ => exact absurd rfl hd
      · show 128 + (k.val - 128) = k.val
        omega
    · rw [dif_neg h1]
      refine concatenate_apply_piece 1 _ _ (ix2 r k) 2 (by simp) S2048x128 c rfl rfl 256 rfl
        (ix2 r ⟨k.val - 256, by have := k.isLt; omega⟩) ?_ ?_
      · intro d hd
        match d with
        | ⟨0, _⟩ => rfl
        | ⟨1, _⟩ => exact absurd rfl hd
      · show 256 + (k.val - 256) = k.val
        omega

/-- A one-row array [1, 640] spread down 2048 rows, read at (r, c), is the row's entry c. -/
theorem spread_apply (v : FVec Ideal S1x640 .f32) (r : Fin 2048) (c : Fin 640) :
    broadcastTo S2048x640 v broadcasts_S1x640_S2048x640 (ix2 r c) = v (ix2 (0 : Fin 1) c) := by
  refine broadcastTo_apply v _ (ix2 r c) (ix2 (0 : Fin 1) c) fun a => ?_
  match a with
  | ⟨0, _⟩ => rfl
  | ⟨1, _⟩ => rfl

/-- The band of 128 columns starting at column `off` of a [2048, 640] array, read at (r, j), is the array at
    (r, off + j). -/
theorem band_apply (off : Nat) (x : FVec Ideal S2048x640 .f32) (h : S2048x640.Slices ![0, off] S2048x128)
    (r : Fin 2048) (j : Fin 128) (c : Fin 640) (hc : c.val = off + j.val) :
    extractStridedSlice S2048x128 ![0, off] x h (ix2 r j) = x (ix2 r c) := by
  refine extractStridedSlice_apply _ x h (ix2 r j) (ix2 r c) fun a => ?_
  match a with
  | ⟨0, _⟩ => show r.val = 0 + r.val; omega
  | ⟨1, _⟩ => exact hc

/-- The tile's pre-activations at row r, fused column c. -/
theorem pay_pre (x0 x2 x4 : Vec Ideal S2048x128 .f32) (v9 : Vec Ideal S384x640 .bf16) (v12 : Vec Ideal S1x640 .f32)
    (r : Fin 2048) (c : Fin 640) :
    k0_pay1 (F := Ideal) x0 x2 x4 v9 v12 (ix2 r c)
      = fusedPre (joinX (mat x4) (mat x0) (mat x2)) (mat v9) (fun c => v12 (ix2 (0 : Fin 1) c)) r c := by
  unfold k0_pay1 fusedPre
  refine (addf_apply _ _ _).trans ?_
  refine congrArg₂ (· + ·) ?_ ?_
  · refine (plainDot.matmul_zero_apply_formats none _ _ r c).trans ?_
    refine Finset.sum_congr rfl fun k _ => ?_
    refine congrArg₂ (· * ·) ?_ ?_
    · exact join_apply _ _ _ r k
    · rw [shapeCast_self]; rfl
  · refine (spread_apply _ r c).trans ?_
    rw [shapeCast_self]

/-- Column `col g j` is column `128·g + j`. -/
theorem col_val (g : Fin 5) (j : Fin 128) : (col g j).val = 128 * g.val + j.val := rfl

/-- The new cell state of the tile at (r, j). -/
theorem pay_c (x0 x1 x2 x3 x4 : Vec Ideal S2048x128 .f32) (v9 : Vec Ideal S384x640 .bf16) (v12 : Vec Ideal S1x640 .f32)
    (r : Fin 2048) (j : Fin 128) :
    k0_pay2 (F := Ideal) x0 x1 x2 x3 x4 v9 v12 (ix2 r j)
      = fusedC (joinX (mat x4) (mat x0) (mat x2)) (mat v9) (fun c => v12 (ix2 (0 : Fin 1) c)) (mat x1) (mat x3) r j := by
  unfold k0_pay2 fusedC
  refine (addf_apply _ _ _).trans ?_
  refine congrArg₂ (· + ·) ?_ ?_
  · refine (addf_apply _ _ _).trans ?_
    refine congrArg₂ (· + ·) ?_ ?_
    · refine (mulf_apply _ _ _).trans ?_
      refine congrArg₂ (· * ·) ?_ ?_
      · exact congrArg Ideal.logistic ((band_apply 0 _ _ r j (col 0 j) rfl).trans (pay_pre x0 x2 x4 v9 v12 r (col 0 j)))
      · exact congrArg Ideal.tanh ((band_apply 512 _ _ r j (col 4 j) rfl).trans (pay_pre x0 x2 x4 v9 v12 r (col 4 j)))
    · refine (mulf_apply _ _ _).trans ?_
      refine congrArg₂ (· * ·) ?_ rfl
      exact congrArg Ideal.logistic ((band_apply 128 _ _ r j (col 1 j) rfl).trans (pay_pre x0 x2 x4 v9 v12 r (col 1 j)))
  · refine (mulf_apply _ _ _).trans ?_
    refine congrArg₂ (· * ·) ?_ rfl
    exact congrArg Ideal.logistic ((band_apply 256 _ _ r j (col 2 j) rfl).trans (pay_pre x0 x2 x4 v9 v12 r (col 2 j)))

/-- The new hidden state of the tile at (r, j). -/
theorem pay_h (x0 x1 x2 x3 x4 : Vec Ideal S2048x128 .f32) (v9 : Vec Ideal S384x640 .bf16) (v12 : Vec Ideal S1x640 .f32)
    (r : Fin 2048) (j : Fin 128) :
    k0_pay3 (F := Ideal) x0 x1 x2 x3 x4 v9 v12 (ix2 r j)
      = fusedH (joinX (mat x4) (mat x0) (mat x2)) (mat v9) (fun c => v12 (ix2 (0 : Fin 1) c)) (mat x1) (mat x3) r j := by
  unfold k0_pay3 fusedH
  refine (mulf_apply _ _ _).trans ?_
  refine congrArg₂ (· * ·) ?_ ?_
  · exact congrArg Ideal.logistic ((band_apply 384 _ _ r j (col 3 j) rfl).trans (pay_pre x0 x2 x4 v9 v12 r (col 3 j)))
  · exact congrArg Ideal.tanh (pay_c x0 x1 x2 x3 x4 v9 v12 r j)

end Cert.KernelIdeal.CellValue

end
-- ==== Proof.CellLaw.lean ====
/-
  The law joining the two groupings of the tree-LSTM cell's pre-activations.

  A sum over 384 consecutive positions is the sum of three sums over 128 positions each; on each block the joined row
  [p | hl | hr] is one of the three rows and the fused matrix is one source's weight of the gate, so the fused
  pre-activation at column 128·g + j is gate g's split pre-activation at column j.  Only the additive commutative
  monoid structure of the extended reals is used: no finiteness is needed.
-/
import proofs.«122884_j44976897523967_2_alg».proof.Proof.Spec

noncomputable section

namespace Cert.TreeCell

open Idealize.ShloMosaic

/-- A sum over 384 positions is three sums over 128 positions. -/
theorem sum_384 {M : Type*} [AddCommMonoid M] (f : Fin 384 → M) :
    ∑ k : Fin 384, f k
      = (∑ k : Fin 128, f ⟨k.val, by omega⟩ + ∑ k : Fin 128, f ⟨128 + k.val, by omega⟩)
          + ∑ k : Fin 128, f ⟨256 + k.val, by omega⟩ := by
  have h1 : ∑ k : Fin (128 + 128 + 128), f k
      = ∑ i : Fin (128 + 128), f (Fin.castAdd 128 i) + ∑ i : Fin 128, f (Fin.natAdd (128 + 128) i) :=
    Fin.sum_univ_add (a := 128 + 128) (b := 128) f
  have h2 : ∑ i : Fin (128 + 128), f (Fin.castAdd 128 i)
      = ∑ i : Fin 128, f (Fin.castAdd 128 (Fin.castAdd 128 i)) + ∑ i : Fin 128, f (Fin.castAdd 128 (Fin.natAdd 128 i)) :=
    Fin.sum_univ_add (a := 128) (b := 128) (fun i : Fin (128 + 128) => f (Fin.castAdd 128 i))
  exact h1.trans (congrArg (· + ∑ i : Fin 128, f (Fin.natAdd (128 + 128) i)) h2)

theorem joinX_block0 {n : Nat} (p hl hr : Fin n → Fin 128 → EReal) (i : Fin n) (k : Fin 128) :
    joinX p hl hr i ⟨k.val, by omega⟩ = p i k := by
  unfold joinX
  rw [dif_pos (show k.val < 128 from k.isLt)]

theorem joinX_block1 {n : Nat} (p hl hr : Fin n → Fin 128 → EReal) (i : Fin n) (k : Fin 128) :
    joinX p hl hr i ⟨128 + k.val, by omega⟩ = hl i k := by
  unfold joinX
  rw [dif_neg (show ¬ 128 + k.val < 128 by omega), dif_pos (show 128 + k.val < 256 by omega)]
  congr 1
  apply Fin.ext
  show 128 + k.val - 128 = k.val
  omega

theorem joinX_block2 {n : Nat} (p hl hr : Fin n → Fin 128 → EReal) (i : Fin n) (k : Fin 128) :
    joinX p hl hr i ⟨256 + k.val, by omega⟩ = hr i k := by
  unfold joinX
  rw [dif_neg (show ¬ 256 + k.val < 128 by omega), dif_neg (show ¬ 256 + k.val < 256 by omega)]
  congr 1
  apply Fin.ext
  show 256 + k.val - 256 = k.val
  omega

/-- The fused matrix at row 128·s + k', column 128·g + j is source s's weight of gate g at (k', j). -/
theorem joinW_eq (Ws : Fin 3 → Fin 5 → Fin 128 → Fin 128 → EReal) (k : Fin 384) (c : Fin 640)
    (s : Fin 3) (g : Fin 5) (k' j : Fin 128)
    (hk : k.val = 128 * s.val + k'.val) (hc : c.val = 128 * g.val + j.val) : joinW Ws k c = Ws s g k' j := by
  unfold joinW
  have h1 : (⟨k.val / 128, by have := k.isLt; omega⟩ : Fin 3) = s := Fin.ext (by show k.val / 128 = s.val; omega)
  have h2 : (⟨c.val / 128, by have := c.isLt; omega⟩ : Fin 5) = g := Fin.ext (by show c.val / 128 = g.val; omega)
  have h3 : (⟨k.val % 128, Nat.mod_lt _ (by norm_num)⟩ : Fin 128) = k' := Fin.ext (by show k.val % 128 = k'.val; omega)
  have h4 : (⟨c.val % 128, Nat.mod_lt _ (by norm_num)⟩ : Fin 128) = j := Fin.ext (by show c.val % 128 = j.val; omega)
  rw [h1, h2, h3, h4]

/-- The fused bias at column 128·g + j is gate g's bias at j. -/
theorem joinB_col (bs : Fin 5 → Fin 128 → EReal) (g : Fin 5) (j : Fin 128) : joinB bs (col g j) = bs g j := by
  unfold joinB
  have h2 : (⟨(col g j).val / 128, by have := (col g j).isLt; omega⟩ : Fin 5) = g :=
    Fin.ext (by show (128 * g.val + j.val) / 128 = g.val; omega)
  have h4 : (⟨(col g j).val % 128, Nat.mod_lt _ (by norm_num)⟩ : Fin 128) = j :=
    Fin.ext (by show (128 * g.val + j.val) % 128 = j.val; omega)
  rw [h2, h4]

/-- The fused pre-activation at column 128·g + j is gate g's split pre-activation at column j. -/
theorem fusedPre_join {n : Nat} (Ws : Fin 3 → Fin 5 → Fin 128 → Fin 128 → EReal) (bs : Fin 5 → Fin 128 → EReal)
    (p hl hr : Fin n → Fin 128 → EReal) (g : Fin 5) (i : Fin n) (j : Fin 128) :
    fusedPre (joinX p hl hr) (joinW Ws) (joinB bs) i (col g j) = pre Ws bs p hl hr g i j := by
  unfold fusedPre pre gatePre
  rw [sum_384, joinB_col]
  have e0 : ∀ k : Fin 128, joinX p hl hr i ⟨k.val, by omega⟩ * joinW Ws ⟨k.val, by omega⟩ (col g j)
      = p i k * Ws 0 g k j := fun k => by
    rw [joinX_block0, joinW_eq Ws _ _ 0 g k j (by show k.val = 128 * 0 + k.val; omega) rfl]
  have e1 : ∀ k : Fin 128, joinX p hl hr i ⟨128 + k.val, by omega⟩ * joinW Ws ⟨128 + k.val, by omega⟩ (col g j)
      = hl i k * Ws 1 g k j := fun k => by
    rw [joinX_block1, joinW_eq Ws _ _ 1 g k j (by show 128 + k.val = 128 * 1 + k.val; omega) rfl]
  have e2 : ∀ k : Fin 128, joinX p hl hr i ⟨256 + k.val, by omega⟩ * joinW Ws ⟨256 + k.val, by omega⟩ (col g j)
      = hr i k * Ws 2 g k j := fun k => by
    rw [joinX_block2, joinW_eq Ws _ _ 2 g k j (by show 256 + k.val = 128 * 2 + k.val; omega) rfl]
  simp only [e0, e1, e2]

/-- The fused cell state is the split cell state. -/
theorem fusedC_join {n : Nat} (Ws : Fin 3 → Fin 5 → Fin 128 → Fin 128 → EReal) (bs : Fin 5 → Fin 128 → EReal)
    (p hl hr cl cr : Fin n → Fin 128 → EReal) (i : Fin n) (j : Fin 128) :
    fusedC (joinX p hl hr) (joinW Ws) (joinB bs) cl cr i j = cellC Ws bs p hl hr cl cr i j := by
  unfold fusedC cellC
  rw [fusedPre_join, fusedPre_join, fusedPre_join, fusedPre_join]

/-- The fused hidden state is the split hidden state. -/
theorem fusedH_join {n : Nat} (Ws : Fin 3 → Fin 5 → Fin 128 → Fin 128 → EReal) (bs : Fin 5 → Fin 128 → EReal)
    (p hl hr cl cr : Fin n → Fin 128 → EReal) (i : Fin n) (j : Fin 128) :
    fusedH (joinX p hl hr) (joinW Ws) (joinB bs) cl cr i j = cellH Ws bs p hl hr cl cr i j := by
  unfold fusedH cellH
  rw [fusedPre_join, fusedC_join]

end Cert.TreeCell

end
-- ==== Proof.HostFused.lean ====
/-
  The fused weight matrix and the fused bias row as the host builds them, read at an index.

  Before the device region the host joins the fourteen [128,128] weights into one [384,640] matrix — three rows of five
  blocks: five blocks side by side along the columns, three such strips stacked along the rows — rounds it (the identity
  on extended reals), joins the five [128] biases end to end into one [640] row and gives that row a leading unit axis.
  A concatenation read at an index is the piece whose span holds the coordinate on the joined axis, so the matrix at
  (128·s + r, 128·g + c) is block (s, g) at (r, c), and the row at (0, 128·g + c) is bias g at c: exactly the fused
  matrix and the fused bias of the weight and bias families.
-/
import proofs.«122884_j44976897523967_2_alg».proof.Proof.Gen.KernelIdeal.Launch
import proofs.«122884_j44976897523967_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostValue

open Cert.KernelIdeal Cert.KernelIdeal.Gen Idealize.ShloMosaic Idealize.ShloMosaic.TcCoe Idealize.SL.Sem Cert.TreeCell
open Idealize.ShloMosaic.StableHlo

/-! ## Concatenations of equal pieces read at an index -/

/-- Five [128,128] arrays joined along axis 1, read at (r, 128·g + j): piece g at (r, j). -/
theorem cols5_apply {α : Type} (x0 x1 x2 x3 x4 : S128x128.Idx → α)
    (h : Shape.Concatenates [S128x128, S128x128, S128x128, S128x128, S128x128] S128x640 1)
    (r : Fin 128) (q : Fin 640) (g : Fin 5) (j : Fin 128) (hq : q.val = 128 * g.val + j.val) :
    concatenate S128x640 1 [⟨S128x128, x0⟩, ⟨S128x128, x1⟩, ⟨S128x128, x2⟩, ⟨S128x128, x3⟩, ⟨S128x128, x4⟩] h (ValueIdx.ix2 r q)
      = (![x0, x1, x2, x3, x4] : Fin 5 → S128x128.Idx → α) g (ValueIdx.ix2 r j) := by
  refine concatenate_apply_piece (t := S128x640) (1 : Fin 2)
    [⟨S128x128, x0⟩, ⟨S128x128, x1⟩, ⟨S128x128, x2⟩, ⟨S128x128, x3⟩, ⟨S128x128, x4⟩] h (ValueIdx.ix2 r q) g.val (by show g.val < 5; exact g.isLt) S128x128
    ((![x0, x1, x2, x3, x4] : Fin 5 → S128x128.Idx → α) g) ?_ rfl (128 * g.val) ?_ (ValueIdx.ix2 r j) ?_ ?_
  · fin_cases g <;> rfl
  · fin_cases g <;> rfl
  · intro b hb
    match b with
    | ⟨0, _⟩ => rfl
    | ⟨1, _⟩ => exact absurd rfl hb
  · show 128 * g.val + j.val = q.val
    omega

/-- Three [128,640] arrays joined along axis 0, read at (128·s + r, q): piece s at (r, q). -/
theorem rows3_apply {α : Type} (x0 x1 x2 : S128x640.Idx → α)
    (h : Shape.Concatenates [S128x640, S128x640, S128x640] S384x640 0)
    (k : Fin 384) (q : Fin 640) (s : Fin 3) (r : Fin 128) (hk : k.val = 128 * s.val + r.val) :
    concatenate S384x640 0 [⟨S128x640, x0⟩, ⟨S128x640, x1⟩, ⟨S128x640, x2⟩] h (ValueIdx.ix2 k q)
      = (![x0, x1, x2] : Fin 3 → S128x640.Idx → α) s (ValueIdx.ix2 r q) := by
  refine concatenate_apply_piece (t := S384x640) (0 : Fin 2)
    [⟨S128x640, x0⟩, ⟨S128x640, x1⟩, ⟨S128x640, x2⟩] h (ValueIdx.ix2 k q) s.val (by show s.val < 3; exact s.isLt) S128x640
    ((![x0, x1, x2] : Fin 3 → S128x640.Idx → α) s) ?_ rfl (128 * s.val) ?_ (ValueIdx.ix2 r q) ?_ ?_
  · fin_cases s <;> rfl
  · fin_cases s <;> rfl
  · intro b hb
    match b with
    | ⟨0, _⟩ => exact absurd rfl hb
    | ⟨1, _⟩ => rfl
  · show 128 * s.val + r.val = k.val
    omega

/-- Five [128] rows joined end to end, read at 128·g + j: piece g at j. -/
theorem row5_apply {α : Type} (x0 x1 x2 x3 x4 : S128.Idx → α)
    (h : Shape.Concatenates [S128, S128, S128, S128, S128] S640 0)
    (q : Fin 640) (g : Fin 5) (j : Fin 128) (hq : q.val = 128 * g.val + j.val) :
    concatenate S640 0 [⟨S128, x0⟩, ⟨S128, x1⟩, ⟨S128, x2⟩, ⟨S128, x3⟩, ⟨S128, x4⟩] h (ValueIdx.ix1 q)
      = (![x0, x1, x2, x3, x4] : Fin 5 → S128.Idx → α) g (ValueIdx.ix1 j) := by
  refine concatenate_apply_piece (t := S640) (0 : Fin 1)
    [⟨S128, x0⟩, ⟨S128, x1⟩, ⟨S128, x2⟩, ⟨S128, x3⟩, ⟨S128, x4⟩] h (ValueIdx.ix1 q) g.val (by show g.val < 5; exact g.isLt) S128
    ((![x0, x1, x2, x3, x4] : Fin 5 → S128.Idx → α) g) ?_ rfl (128 * g.val) ?_ (ValueIdx.ix1 j) ?_ ?_
  · fin_cases g <;> rfl
  · fin_cases g <;> rfl
  · intro b hb
    match b with
    | ⟨0, _⟩ => exact absurd rfl hb
  · show 128 * g.val + j.val = q.val
    omega

/-- Fifteen [128,128] arrays laid out as three rows of five, read at (128·s + r, 128·g + j): array (s, g) at (r, j). -/
theorem grid_apply {α : Type} (w00 w01 w02 w03 w04 w10 w11 w12 w13 w14 w20 w21 w22 w23 w24 : S128x128.Idx → α)
    (h1 : Shape.Concatenates [S128x128, S128x128, S128x128, S128x128, S128x128] S128x640 1)
    (h0 : Shape.Concatenates [S128x640, S128x640, S128x640] S384x640 0)
    (k : Fin 384) (q : Fin 640) (s : Fin 3) (r : Fin 128) (g : Fin 5) (j : Fin 128)
    (hk : k.val = 128 * s.val + r.val) (hq : q.val = 128 * g.val + j.val) :
    concatenate S384x640 0
        [⟨S128x640, concatenate S128x640 1 [⟨S128x128, w00⟩, ⟨S128x128, w01⟩, ⟨S128x128, w02⟩, ⟨S128x128, w03⟩, ⟨S128x128, w04⟩] h1⟩,
         ⟨S128x640, concatenate S128x640 1 [⟨S128x128, w10⟩, ⟨S128x128, w11⟩, ⟨S128x128, w12⟩, ⟨S128x128, w13⟩, ⟨S128x128, w14⟩] h1⟩,
         ⟨S128x640, concatenate S128x640 1 [⟨S128x128, w20⟩, ⟨S128x128, w21⟩, ⟨S128x128, w22⟩, ⟨S128x128, w23⟩, ⟨S128x128, w24⟩] h1⟩]
        h0 (ValueIdx.ix2 k q)
      = (![![w00, w01, w02, w03, w04], ![w10, w11, w12, w13, w14], ![w20, w21, w22, w23, w24]]
          : Fin 3 → Fin 5 → S128x128.Idx → α) s g (ValueIdx.ix2 r j) := by
  refine (rows3_apply _ _ _ h0 k q s r hk).trans ?_
  fin_cases s
  · exact cols5_apply w00 w01 w02 w03 w04 h1 r q g j hq
  · exact cols5_apply w10 w11 w12 w13 w14 h1 r q g j hq
  · exact cols5_apply w20 w21 w22 w23 w24 h1 r q g j hq

/-! ## The families read block by block -/

/-- The three rows of five blocks, read at block (s, g), are the weight family of the fourteen matrices at (s, g). -/
theorem weightFam_apply (a5 a6 a7 a8 a9 a10 a11 a12 a13 a14 a15 a16 a17 a18 : A2 128 128)
    (s : Fin 3) (g : Fin 5) (r j : Fin 128) :
    (![![a5, a8, a8, a13, a16], ![a6, a9, a11, a14, a17], ![a7, a10, a12, a15, a18]]
        : Fin 3 → Fin 5 → A2 128 128) s g (ValueIdx.ix2 r j)
      = weightFam (mat a5) (mat a6) (mat a7) (mat a8) (mat a9) (mat a10) (mat a11) (mat a12) (mat a13) (mat a14)
          (mat a15) (mat a16) (mat a17) (mat a18) s g r j := by
  fin_cases s <;> fin_cases g <;> rfl

/-- The five rows, read at row g, are the bias family of the five rows at g. -/
theorem biasFam_apply (b19 b20 b21 b22 b23 : A1 128) (g : Fin 5) (j : Fin 128) :
    (![b19, b20, b21, b22, b23] : Fin 5 → A1 128) g (ValueIdx.ix1 j)
      = biasFam (vec b19) (vec b20) (vec b21) (vec b22) (vec b23) g j := by
  fin_cases g <;> rfl

/-! ## The host operations' results at a buffer -/

/-- One round of reading the operations' results at literal references: the operand families' entries resolved, then each
    operation's result at its own buffer its function's value, at another buffer what was there. -/
macro "host_step" : tactic =>
  `(tactic| ((try dsimp only [Matrix.cons_val])
             repeat (first
               | rw [unary_result] | rw [reshape_result] | rw [nary_result]
               | (rw [unary_result_ne]; rotate_left; decide)
               | (rw [reshape_result_ne]; rotate_left; decide)
               | (rw [nary_result_ne]; rotate_left; decide))))

variable (m : (ℓ : Loc nD τ sig) → Buf (Elt Ideal) ℓ) (c : Dev nD)

/-- The rounded joined matrix the host hands to the device region, at (k, q): the fused matrix of the weight family
    of the fourteen weight arguments. -/
theorem fusedW (k : Fin 384) (q : Fin 640) :
    (StableHlo.after (hostOps0 (F := Ideal)) (fun b => m (c, b)) (Proc.devRef .tc main_v4) : S384x640.Idx → EReal) (ValueIdx.ix2 k q)
      = joinW (weightFam (mat (m ((c : Thread nD τ).loc main_arg5))) (mat (m ((c : Thread nD τ).loc main_arg6)))
          (mat (m ((c : Thread nD τ).loc main_arg7))) (mat (m ((c : Thread nD τ).loc main_arg8)))
          (mat (m ((c : Thread nD τ).loc main_arg9))) (mat (m ((c : Thread nD τ).loc main_arg10)))
          (mat (m ((c : Thread nD τ).loc main_arg11))) (mat (m ((c : Thread nD τ).loc main_arg12)))
          (mat (m ((c : Thread nD τ).loc main_arg13))) (mat (m ((c : Thread nD τ).loc main_arg14)))
          (mat (m ((c : Thread nD τ).loc main_arg15))) (mat (m ((c : Thread nD τ).loc main_arg16)))
          (mat (m ((c : Thread nD τ).loc main_arg17))) (mat (m ((c : Thread nD τ).loc main_arg18)))) k q := by
  have hk : k.val = 128 * (k.val / 128) + k.val % 128 := by omega
  have hq : q.val = 128 * (q.val / 128) + q.val % 128 := by omega
  dsimp only [hostOps0]
  after_results
  host_step
  host_step
  rw [ValueIdx.truncf_apply]
  refine (grid_apply _ _ _ _ _ _ _ _ _ _ _ _ _ _ _ _ _ k q ⟨k.val / 128, by omega⟩ ⟨k.val % 128, by omega⟩
    ⟨q.val / 128, by omega⟩ ⟨q.val % 128, by omega⟩ hk hq).trans ?_
  exact weightFam_apply _ _ _ _ _ _ _ _ _ _ _ _ _ _ _ _ _ _

/-- The bias row the host hands to the device region, at (0, q): the fused bias of the bias family of the five bias
    arguments. -/
theorem fusedB (q : Fin 640) :
    (StableHlo.after (hostOps0 (F := Ideal)) (fun b => m (c, b)) (Proc.devRef .tc main_v6) : S1x640.Idx → EReal) (ValueIdx.ix2 (0 : Fin 1) q)
      = joinB (biasFam (vec (m ((c : Thread nD τ).loc main_arg19))) (vec (m ((c : Thread nD τ).loc main_arg20)))
          (vec (m ((c : Thread nD τ).loc main_arg21))) (vec (m ((c : Thread nD τ).loc main_arg22)))
          (vec (m ((c : Thread nD τ).loc main_arg23)))) q := by
  have hq : q.val = 128 * (q.val / 128) + q.val % 128 := by omega
  dsimp only [hostOps0]
  after_results
  host_step
  refine (ValueIdx.shapeCast_a_1a_apply _ _ 0 q).trans ?_
  refine (row5_apply _ _ _ _ _ _ q ⟨q.val / 128, by omega⟩ ⟨q.val % 128, by omega⟩ hq).trans ?_
  exact biasFam_apply _ _ _ _ _ _ _

end Cert.KernelIdeal.HostValue

end
-- ==== Proof.CellOut.lean ====
/-
  What the kernel's program leaves in its two result arrays over the extended reals: the tree-LSTM cell's hidden
  and cell states of the argument arrays, node by node.

  Grid point t stages rows 2048·t … 2048·t + 2047 of the five node arrays, together with the whole 384×640 matrix and
  the whole 1×640 bias row that the host operations joined out of the fourteen weights and five biases.  The body's
  stored payloads at entry (r, j) are the fused cell of the staged rows; the fused matrix is the joined weight family
  and the fused row the joined bias family, so by the law joining the two groupings (one sum over 384 positions is three
  sums over 128) that entry is the split-form cell of node 2048·t + r.  The cell at a node reads only that node's rows,
  so the block point t writes back is block t of one whole-array function, and the 64 blocks cover the array.
-/
import proofs.«122884_j44976897523967_2_alg».proof.Proof.CellFrameIdeal
import proofs.«122884_j44976897523967_2_alg».proof.Proof.Spec
import proofs.«122884_j44976897523967_2_alg».proof.Proof.CellPayload
import proofs.«122884_j44976897523967_2_alg».proof.Proof.CellLaw
import proofs.«122884_j44976897523967_2_alg».proof.Proof.HostFused
import Idealize.ShloMosaic.Lib.Pipeline.Value
import Idealize.ShloMosaic.Lib.ValueIdx

set_option maxRecDepth 16384

noncomputable section

namespace Cert.KernelIdeal.CellOut

open Cert.KernelIdeal Cert.KernelIdeal.Gen Cert.KernelIdeal.Fr Cert.TreeCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The cell at one node reads one row of each node array -/

/-- The joined row at a node is determined by the three rows joined. -/
theorem joinX_congr {n n' : Nat} (p hl hr : Fin n → Fin 128 → EReal) (p' hl' hr' : Fin n' → Fin 128 → EReal) (r : Fin n) (i : Fin n')
    (hp : p r = p' i) (hhl : hl r = hl' i) (hhr : hr r = hr' i) : joinX p hl hr r = joinX p' hl' hr' i := by
  funext k; unfold joinX; rw [hp, hhl, hhr]

/-- The fused cell state at node `r` of one family of rows is the fused cell state at node `i` of another when the
    joined rows, the matrices, the bias rows and the two child cell entries agree. -/
theorem fusedC_congr {n n' : Nat} (x : Fin n → Fin 384 → EReal) (x' : Fin n' → Fin 384 → EReal) (Wb Wb' : Fin 384 → Fin 640 → EReal)
    (bb bb' : Fin 640 → EReal) (cl cr : Fin n → Fin 128 → EReal) (cl' cr' : Fin n' → Fin 128 → EReal) (r : Fin n) (i : Fin n') (j : Fin 128)
    (hx : x r = x' i) (hW : Wb = Wb') (hb : bb = bb') (hcl : cl r j = cl' i j) (hcr : cr r j = cr' i j) :
    fusedC x Wb bb cl cr r j = fusedC x' Wb' bb' cl' cr' i j := by
  subst hW hb; unfold fusedC fusedPre; rw [hx, hcl, hcr]

theorem fusedH_congr {n n' : Nat} (x : Fin n → Fin 384 → EReal) (x' : Fin n' → Fin 384 → EReal) (Wb Wb' : Fin 384 → Fin 640 → EReal)
    (bb bb' : Fin 640 → EReal) (cl cr : Fin n → Fin 128 → EReal) (cl' cr' : Fin n' → Fin 128 → EReal) (r : Fin n) (i : Fin n') (j : Fin 128)
    (hx : x r = x' i) (hW : Wb = Wb') (hb : bb = bb') (hcl : cl r j = cl' i j) (hcr : cr r j = cr' i j) :
    fusedH x Wb bb cl cr r j = fusedH x' Wb' bb' cl' cr' i j := by
  unfold fusedH; rw [fusedC_congr x x' Wb Wb' bb bb' cl cr cl' cr' r i j hx hW hb hcl hcr]
  subst hW hb; unfold fusedPre; rw [hx]

/-! ## The body's two payloads at an entry of a block whose rows are rows of the whole arrays -/

section Point
variable (Ws : Fin 3 → Fin 5 → Fin 128 → Fin 128 → EReal) (bs : Fin 5 → Fin 128 → EReal)
  (HL CL HR CR P : A2 131072 128)
  (x0 x1 x2 x3 x4 : Vec Ideal S2048x128 .f32) (x5 : Vec Ideal S384x640 .bf16) (x6 : Vec Ideal S1x640 .f32)
  (r : Fin 2048) (j : Fin 128) (i : Fin 131072)
  (h0 : ∀ k : Fin 128, x0 (ix2 r k) = HL (ix2 i k)) (h1 : x1 (ix2 r j) = CL (ix2 i j))
  (h2 : ∀ k : Fin 128, x2 (ix2 r k) = HR (ix2 i k)) (h3 : x3 (ix2 r j) = CR (ix2 i j))
  (h4 : ∀ k : Fin 128, x4 (ix2 r k) = P (ix2 i k))
  (h5 : ∀ (k : Fin 384) (q : Fin 640), x5 (ix2 k q) = joinW Ws k q) (h6 : ∀ q : Fin 640, x6 (ix2 (0 : Fin 1) q) = joinB bs q)

include h0 h2 h4 in
theorem rows_join : joinX (mat x4) (mat x0) (mat x2) r = joinX (mat P) (mat HL) (mat HR) i :=
  joinX_congr _ _ _ _ _ _ r i (funext fun k => h4 k) (funext fun k => h0 k) (funext fun k => h2 k)

include h0 h1 h2 h3 h4 h5 h6 in
/-- The stored cell state at entry (r, j) of the block is the cell state of node `i`, column `j`. -/
theorem point_c : k0_pay2 (F := Ideal) x0 x1 x2 x3 x4 x5 x6 (ix2 r j) = cellC Ws bs (mat P) (mat HL) (mat HR) (mat CL) (mat CR) i j := by
  refine (Cert.KernelIdeal.CellValue.pay_c x0 x1 x2 x3 x4 x5 x6 r j).trans ?_
  refine (fusedC_congr _ (joinX (mat P) (mat HL) (mat HR)) _ (joinW Ws) _ (joinB bs) _ _ (mat CL) (mat CR) r i j
    (rows_join HL HR P x0 x2 x4 r i h0 h2 h4) (funext fun k => funext fun q => h5 k q) (funext fun q => h6 q) h1 h3).trans ?_
  exact fusedC_join Ws bs (mat P) (mat HL) (mat HR) (mat CL) (mat CR) i j

include h0 h1 h2 h3 h4 h5 h6 in
/-- The stored hidden state at entry (r, j) of the block is the hidden state of node `i`, column `j`. -/
theorem point_h : k0_pay3 (F := Ideal) x0 x1 x2 x3 x4 x5 x6 (ix2 r j) = cellH Ws bs (mat P) (mat HL) (mat HR) (mat CL) (mat CR) i j := by
  refine (Cert.KernelIdeal.CellValue.pay_h x0 x1 x2 x3 x4 x5 x6 r j).trans ?_
  refine (fusedH_congr _ (joinX (mat P) (mat HL) (mat HR)) _ (joinW Ws) _ (joinB bs) _ _ (mat CL) (mat CR) r i j
    (rows_join HL HR P x0 x2 x4 r i h0 h2 h4) (funext fun k => funext fun q => h5 k q) (funext fun q => h6 q) h1 h3).trans ?_
  exact fusedH_join Ws bs (mat P) (mat HL) (mat HR) (mat CL) (mat CR) i j

end Point

/-! ## The whole arrays after the run -/

/-- The hidden-state array the run ends with, as a function of the launch memory. -/
def GH (c : Dev nD) : A2 131072 128 := outH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))
/-- The cell-state array the run ends with. -/
def GC (c : Dev nD) : A2 131072 128 := outC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

theorem hz : (![0, 0] : Fin 2 → Nat) = fun _ => 0 := funext fun a => by fin_cases a <;> rfl

/-- The printed index maps over the 64 grid points: the five node arrays and the two results are tiled by row block
    `t`; the fused matrix and bias row are one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## The input blocks read off the launch memory -/

/-- Entry (r, k) of window 0's block at point `t` is entry (2048·t + r, k) of `main_arg0` as launched. -/
theorem blk0_apply (c : Dev nD) (t : Fin cfg0.N) (r : Fin 2048) (k : Fin 128) (i : Fin 131072) (hi : i.val = 2048 * t.val + r.val) :
    (iblk m c 0 t : S2048x128.Idx → EReal) (ix2 r k) = (m ((c : Thread nD τ).loc main_arg0) : A2 131072 128) (ix2 i k) := by
  show V m c main_arg0 (((cfg0.win 0).blk t).view.emb (ix2 r k)) = _
  rw [V_main_arg0]
  refine congrArg _ ?_
  obtain ⟨e0, e1, e2, e3, e4, e5, e6, e7, e8⟩ := idx_facts t
  funext a; apply Fin.ext
  match a with
  | ⟨0, _⟩ => show win0_0.index t (0 : Fin 2) * 2048 + 1 * r.val = i.val; rw [e0.1, hi]; omega
  | ⟨1, _⟩ => show win0_0.index t (1 : Fin 2) * 128 + 1 * k.val = k.val; rw [e0.2]; omega

/-- Entry (r, k) of window 1's block at point `t` is entry (2048·t + r, k) of `main_arg1` as launched. -/
theorem blk1_apply (c : Dev nD) (t : Fin cfg0.N) (r : Fin 2048) (k : Fin 128) (i : Fin 131072) (hi : i.val = 2048 * t.val + r.val) :
    (iblk m c 1 t : S2048x128.Idx → EReal) (ix2 r k) = (m ((c : Thread nD τ).loc main_arg1) : A2 131072 128) (ix2 i k) := by
  show V m c main_arg1 (((cfg0.win 1).blk t).view.emb (ix2 r k)) = _
  rw [V_main_arg1]
  refine congrArg _ ?_
  obtain ⟨e0, e1, e2, e3, e4, e5, e6, e7, e8⟩ := idx_facts t
  funext a; apply Fin.ext
  match a with
  | ⟨0, _⟩ => show win0_1.index t (0 : Fin 2) * 2048 + 1 * r.val = i.val; rw [e1.1, hi]; omega
  | ⟨1, _⟩ => show win0_1.index t (1 : Fin 2) * 128 + 1 * k.val = k.val; rw [e1.2]; omega

/-- Entry (r, k) of window 2's block at point `t` is entry (2048·t + r, k) of `main_arg2` as launched. -/
theorem blk2_apply (c : Dev nD) (t : Fin cfg0.N) (r : Fin 2048) (k : Fin 128) (i : Fin 131072) (hi : i.val = 2048 * t.val + r.val) :
    (iblk m c 2 t : S2048x128.Idx → EReal) (ix2 r k) = (m ((c : Thread nD τ).loc main_arg2) : A2 131072 128) (ix2 i k) := by
  show V m c main_arg2 (((cfg0.win 2).blk t).view.emb (ix2 r k)) = _
  rw [V_main_arg2]
  refine congrArg _ ?_
  obtain ⟨e0, e1, e2, e3, e4, e5, e6, e7, e8⟩ := idx_facts t
  funext a; apply Fin.ext
  match a with
  | ⟨0, _⟩ => show win0_2.index t (0 : Fin 2) * 2048 + 1 * r.val = i.val; rw [e2.1, hi]; omega
  | ⟨1, _⟩ => show win0_2.index t (1 : Fin 2) * 128 + 1 * k.val = k.val; rw [e2.2]; omega

/-- Entry (r, k) of window 3's block at point `t` is entry (2048·t + r, k) of `main_arg3` as launched. -/
theorem blk3_apply (c : Dev nD) (t : Fin cfg0.N) (r : Fin 2048) (k : Fin 128) (i : Fin 131072) (hi : i.val = 2048 * t.val + r.val) :
    (iblk m c 3 t : S2048x128.Idx → EReal) (ix2 r k) = (m ((c : Thread nD τ).loc main_arg3) : A2 131072 128) (ix2 i k) := by
  show V m c main_arg3 (((cfg0.win 3).blk t).view.emb (ix2 r k)) = _
  rw [V_main_arg3]
  refine congrArg _ ?_
  obtain ⟨e0, e1, e2, e3, e4, e5, e6, e7, e8⟩ := idx_facts t
  funext a; apply Fin.ext
  match a with
  | ⟨0, _⟩ => show win0_3.index t (0 : Fin 2) * 2048 + 1 * r.val = i.val; rw [e3.1, hi]; omega
  | ⟨1, _⟩ => show win0_3.index t (1 : Fin 2) * 128 + 1 * k.val = k.val; rw [e3.2]; omega

/-- Entry (r, k) of window 4's block at point `t` is entry (2048·t + r, k) of `main_arg4` as launched. -/
theorem blk4_apply (c : Dev nD) (t : Fin cfg0.N) (r : Fin 2048) (k : Fin 128) (i : Fin 131072) (hi : i.val = 2048 * t.val + r.val) :
    (iblk m c 4 t : S2048x128.Idx → EReal) (ix2 r k) = (m ((c : Thread nD τ).loc main_arg4) : A2 131072 128) (ix2 i k) := by
  show V m c main_arg4 (((cfg0.win 4).blk t).view.emb (ix2 r k)) = _
  rw [V_main_arg4]
  refine congrArg _ ?_
  obtain ⟨e0, e1, e2, e3, e4, e5, e6, e7, e8⟩ := idx_facts t
  funext a; apply Fin.ext
  match a with
  | ⟨0, _⟩ => show win0_4.index t (0 : Fin 2) * 2048 + 1 * r.val = i.val; rw [e4.1, hi]; omega
  | ⟨1, _⟩ => show win0_4.index t (1 : Fin 2) * 128 + 1 * k.val = k.val; rw [e4.2]; omega

/-- The fused matrix's one block is the whole matrix the host operations built. -/
theorem blk5_apply (c : Dev nD) (t : Fin cfg0.N) (k : Fin 384) (q : Fin 640) :
    (iblk m c 5 t : S384x640.Idx → EReal) (ix2 k q) = joinW (weightFam (mat (m ((c : Thread nD τ).loc main_arg5))) (mat (m ((c : Thread nD τ).loc main_arg6))) (mat (m ((c : Thread nD τ).loc main_arg7))) (mat (m ((c : Thread nD τ).loc main_arg8))) (mat (m ((c : Thread nD τ).loc main_arg9))) (mat (m ((c : Thread nD τ).loc main_arg10))) (mat (m ((c : Thread nD τ).loc main_arg11))) (mat (m ((c : Thread nD τ).loc main_arg12))) (mat (m ((c : Thread nD τ).loc main_arg13))) (mat (m ((c : Thread nD τ).loc main_arg14))) (mat (m ((c : Thread nD τ).loc main_arg15))) (mat (m ((c : Thread nD τ).loc main_arg16))) (mat (m ((c : Thread nD τ).loc main_arg17))) (mat (m ((c : Thread nD τ).loc main_arg18)))) k q := by
  show V m c main_v4 (((cfg0.win 5).blk t).view.emb (ix2 k q)) = _
  refine Eq.trans (congrArg _ ?_) (Cert.KernelIdeal.HostValue.fusedW m c k q)
  obtain ⟨e0, e1, e2, e3, e4, e5, e6, e7, e8⟩ := idx_facts t
  funext a; apply Fin.ext
  match a with
  | ⟨0, _⟩ => show win0_5.index t (0 : Fin 2) * 384 + 1 * k.val = k.val; rw [e5.1]; omega
  | ⟨1, _⟩ => show win0_5.index t (1 : Fin 2) * 640 + 1 * q.val = q.val; rw [e5.2]; omega

/-- The fused bias row's one block is the whole row the host operations built. -/
theorem blk6_apply (c : Dev nD) (t : Fin cfg0.N) (q : Fin 640) :
    (iblk m c 6 t : S1x640.Idx → EReal) (ix2 (0 : Fin 1) q) = joinB (biasFam (vec (m ((c : Thread nD τ).loc main_arg19))) (vec (m ((c : Thread nD τ).loc main_arg20))) (vec (m ((c : Thread nD τ).loc main_arg21))) (vec (m ((c : Thread nD τ).loc main_arg22))) (vec (m ((c : Thread nD τ).loc main_arg23)))) q := by
  show V m c main_v6 (((cfg0.win 6).blk t).view.emb (ix2 (0 : Fin 1) q)) = _
  refine Eq.trans (congrArg _ ?_) (Cert.KernelIdeal.HostValue.fusedB m c q)
  obtain ⟨e0, e1, e2, e3, e4, e5, e6, e7, e8⟩ := idx_facts t
  funext a; apply Fin.ext
  match a with
  | ⟨0, _⟩ => show win0_6.index t (0 : Fin 2) * 1 + 1 * 0 = 0; rw [e6.1]
  | ⟨1, _⟩ => show win0_6.index t (1 : Fin 2) * 640 + 1 * q.val = q.val; rw [e6.2]; omega

/-! ## What each point writes back -/

/-- Point `t` writes block `t` of the hidden-state array back. -/
theorem flushed7_eq (c : Dev nD) (t : Fin cfg0.N) :
    (dats m 0 c).flushed 7 t = ((cfg0.win 7).blk t).view.read (Elt Ideal) (GH m c) := by
  show (cfg0.win 7).cut (grid0.coords t) ((dats m 0 c).after 7 t) = _
  rw [after0_7]
  unfold out0_7
  rw [View.canon_unit_zero hz]
  simp only [View.ld_unit_zero (S := S2048x128) hz, View.ld_unit_zero (S := S384x640) hz, View.ld_unit_zero (S := S1x640) hz]
  funext y
  obtain ⟨r, j, rfl⟩ : ∃ (r : Fin 2048) (j : Fin 128), y = ix2 r j := ⟨y 0, y 1, eq_ix2 y⟩
  have hN : t.val < 64 := lt_of_lt_of_eq t.isLt (show cfg0.N = 64 from N_0)
  let i : Fin 131072 := ⟨2048 * t.val + r.val, by have := r.isLt; omega⟩
  obtain ⟨e0, e1, e2, e3, e4, e5, e6, e7, e8⟩ := idx_facts t
  have hemb : ((cfg0.win 7).blk t).view.emb (ix2 r j) = ix2 i j := by
    funext a; apply Fin.ext
    match a with
    | ⟨0, _⟩ => show win0_7.index t (0 : Fin 2) * 2048 + 1 * r.val = 2048 * t.val + r.val; rw [e7.1]; omega
    | ⟨1, _⟩ => show win0_7.index t (1 : Fin 2) * 128 + 1 * j.val = j.val; rw [e7.2]; omega
  show k0_pay3 (F := Ideal) (iblk m c 0 t) (iblk m c 1 t) (iblk m c 2 t) (iblk m c 3 t) (iblk m c 4 t) (iblk m c 5 t) (iblk m c 6 t) (ix2 r j)
    = GH m c (((cfg0.win 7).blk t).view.emb (ix2 r j))
  rw [hemb]
  exact point_h _ _ _ _ _ _ _ _ _ _ _ _ _ _ r j i
    (fun k => blk0_apply m c t r k i rfl) (blk1_apply m c t r j i rfl) (fun k => blk2_apply m c t r k i rfl) (blk3_apply m c t r j i rfl)
    (fun k => blk4_apply m c t r k i rfl) (fun k q => blk5_apply m c t k q) (fun q => blk6_apply m c t q)

/-- Point `t` writes block `t` of the cell-state array back. -/
theorem flushed8_eq (c : Dev nD) (t : Fin cfg0.N) :
    (dats m 0 c).flushed 8 t = ((cfg0.win 8).blk t).view.read (Elt Ideal) (GC m c) := by
  show (cfg0.win 8).cut (grid0.coords t) ((dats m 0 c).after 8 t) = _
  rw [after0_8]
  unfold out0_8
  rw [View.canon_unit_zero hz]
  simp only [View.ld_unit_zero (S := S2048x128) hz, View.ld_unit_zero (S := S384x640) hz, View.ld_unit_zero (S := S1x640) hz]
  funext y
  obtain ⟨r, j, rfl⟩ : ∃ (r : Fin 2048) (j : Fin 128), y = ix2 r j := ⟨y 0, y 1, eq_ix2 y⟩
  have hN : t.val < 64 := lt_of_lt_of_eq t.isLt (show cfg0.N = 64 from N_0)
  let i : Fin 131072 := ⟨2048 * t.val + r.val, by have := r.isLt; omega⟩
  obtain ⟨e0, e1, e2, e3, e4, e5, e6, e7, e8⟩ := idx_facts t
  have hemb : ((cfg0.win 8).blk t).view.emb (ix2 r j) = ix2 i j := by
    funext a; apply Fin.ext
    match a with
    | ⟨0, _⟩ => show win0_8.index t (0 : Fin 2) * 2048 + 1 * r.val = 2048 * t.val + r.val; rw [e8.1]; omega
    | ⟨1, _⟩ => show win0_8.index t (1 : Fin 2) * 128 + 1 * j.val = j.val; rw [e8.2]; omega
  show k0_pay2 (F := Ideal) (iblk m c 0 t) (iblk m c 1 t) (iblk m c 2 t) (iblk m c 3 t) (iblk m c 4 t) (iblk m c 5 t) (iblk m c 6 t) (ix2 r j)
    = GC m c (((cfg0.win 8).blk t).view.emb (ix2 r j))
  rw [hemb]
  exact point_c _ _ _ _ _ _ _ _ _ _ _ _ _ _ r j i
    (fun k => blk0_apply m c t r k i rfl) (blk1_apply m c t r j i rfl) (fun k => blk2_apply m c t r k i rfl) (blk3_apply m c t r j i rfl)
    (fun k => blk4_apply m c t r k i rfl) (fun k q => blk5_apply m c t k q) (fun q => blk6_apply m c t q)

/-! ## The cover: row `i` of a result lies in the block of point `i / 2048` -/

theorem mem_blk7 (t : Fin cfg0.N) (i : S131072x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v7_0).slice (win0_7.rect t)).set ↔ _
  rw [View.set_slice_whole, Rect.mem_set_unit]
  exact Iff.rfl

theorem mem_blk8 (t : Fin cfg0.N) (i : S131072x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v7_1).slice (win0_8.rect t)).set ↔ _
  rw [View.set_slice_whole, Rect.mem_set_unit]
  exact Iff.rfl

theorem cover7 (i : S131072x128.Idx) : ∃ t : Fin cfg0.N, (cfg0.win 7).flush t = true ∧ i ∈ ((cfg0.win 7).blk t).view.set := by
  have hi0 : (i 0).val < 131072 := (i 0).isLt
  have hi1 : (i 1).val < 128 := (i 1).isLt
  have hN : cfg0.N = 64 := N_0
  let t : Fin cfg0.N := ⟨(i 0).val / 2048, by rw [hN]; omega⟩
  obtain ⟨e0, e1, e2, e3, e4, e5, e6, e7, e8⟩ := idx_facts t
  refine ⟨t, flush0_7 t, ?_⟩
  rw [mem_blk7]
  intro a
  match a with
  | ⟨0, _⟩ => show win0_7.index t (0 : Fin 2) * 2048 ≤ (i 0).val ∧ (i 0).val < win0_7.index t (0 : Fin 2) * 2048 + 2048; rw [e7.1]; show (i 0).val / 2048 * 2048 ≤ (i 0).val ∧ (i 0).val < (i 0).val / 2048 * 2048 + 2048; omega
  | ⟨1, _⟩ => show win0_7.index t (1 : Fin 2) * 128 ≤ (i 1).val ∧ (i 1).val < win0_7.index t (1 : Fin 2) * 128 + 128; rw [e7.2]; omega

theorem cover8 (i : S131072x128.Idx) : ∃ t : Fin cfg0.N, (cfg0.win 8).flush t = true ∧ i ∈ ((cfg0.win 8).blk t).view.set := by
  have hi0 : (i 0).val < 131072 := (i 0).isLt
  have hi1 : (i 1).val < 128 := (i 1).isLt
  have hN : cfg0.N = 64 := N_0
  let t : Fin cfg0.N := ⟨(i 0).val / 2048, by rw [hN]; omega⟩
  obtain ⟨e0, e1, e2, e3, e4, e5, e6, e7, e8⟩ := idx_facts t
  refine ⟨t, flush0_8 t, ?_⟩
  rw [mem_blk8]
  intro a
  match a with
  | ⟨0, _⟩ => show win0_8.index t (0 : Fin 2) * 2048 ≤ (i 0).val ∧ (i 0).val < win0_8.index t (0 : Fin 2) * 2048 + 2048; rw [e8.1]; show (i 0).val / 2048 * 2048 ≤ (i 0).val ∧ (i 0).val < (i 0).val / 2048 * 2048 + 2048; omega
  | ⟨1, _⟩ => show win0_8.index t (1 : Fin 2) * 128 ≤ (i 1).val ∧ (i 1).val < win0_8.index t (1 : Fin 2) * 128 + 128; rw [e8.2]; omega

/-- The hidden-state array after the run. -/
theorem final7 (c : Dev nD) : (dats m 0 c).arrAt 7 cfg0.N = GH m c :=
  (dats m 0 c).arrAt_eq_of_cover 7 (GH m c) (fun t _ => flushed7_eq m c t) cover7

/-- The cell-state array after the run. -/
theorem final8 (c : Dev nD) : (dats m 0 c).arrAt 8 cfg0.N = GC m c :=
  (dats m 0 c).arrAt_eq_of_cover 8 (GC m c) (fun t _ => flushed8_eq m c t) cover8

/-! ## The run, read -/

/-- Every weakly fair execution of the kernel's program ends with the two results at the cell's hidden and cell
    states of the launch memory's arguments, and the arguments unchanged. -/
theorem run : θ_run defs (onTc (τ := τ) (main (F := Ideal))) ⟨m, fun _ => 0, ρ⟩ fun r => ∀ c : Dev nD,
      r.2.mem ((c.tc : Thread nD τ).loc main_v7_0) = GH m c
      ∧ r.2.mem ((c.tc : Thread nD τ).loc main_v7_1) = GC m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun r h c => ⟨((h c).1 7).trans (final7 m c), ((h c).1 8).trans (final8 m c),
      kept_of m (dats m) (A_eq m) r h c⟩)
    (run_main m ρ)

/-- The two result arrays of any twenty-four arrays equal to the launch memory's arguments. -/
theorem GH_of_eq (c : Dev nD) (x0 : A2 131072 128) (x1 : A2 131072 128) (x2 : A2 131072 128) (x3 : A2 131072 128) (x4 : A2 131072 128) (x5 : A2 128 128) (x6 : A2 128 128) (x7 : A2 128 128) (x8 : A2 128 128) (x9 : A2 128 128) (x10 : A2 128 128) (x11 : A2 128 128) (x12 : A2 128 128) (x13 : A2 128 128) (x14 : A2 128 128) (x15 : A2 128 128) (x16 : A2 128 128) (x17 : A2 128 128) (x18 : A2 128 128) (x19 : A1 128) (x20 : A1 128) (x21 : A1 128) (x22 : A1 128) (x23 : A1 128)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) (h7 : x7 = m ((c : Thread nD τ).loc main_arg7)) (h8 : x8 = m ((c : Thread nD τ).loc main_arg8)) (h9 : x9 = m ((c : Thread nD τ).loc main_arg9)) (h10 : x10 = m ((c : Thread nD τ).loc main_arg10)) (h11 : x11 = m ((c : Thread nD τ).loc main_arg11)) (h12 : x12 = m ((c : Thread nD τ).loc main_arg12)) (h13 : x13 = m ((c : Thread nD τ).loc main_arg13)) (h14 : x14 = m ((c : Thread nD τ).loc main_arg14)) (h15 : x15 = m ((c : Thread nD τ).loc main_arg15)) (h16 : x16 = m ((c : Thread nD τ).loc main_arg16)) (h17 : x17 = m ((c : Thread nD τ).loc main_arg17)) (h18 : x18 = m ((c : Thread nD τ).loc main_arg18)) (h19 : x19 = m ((c : Thread nD τ).loc main_arg19)) (h20 : x20 = m ((c : Thread nD τ).loc main_arg20)) (h21 : x21 = m ((c : Thread nD τ).loc main_arg21)) (h22 : x22 = m ((c : Thread nD τ).loc main_arg22)) (h23 : x23 = m ((c : Thread nD τ).loc main_arg23)) : outH x0 x1 x2 x3 x4 x5 x6 x7 x8 x9 x10 x11 x12 x13 x14 x15 x16 x17 x18 x19 x20 x21 x22 x23 = GH m c := by
  subst h0 h1 h2 h3 h4 h5 h6 h7 h8 h9 h10 h11 h12 h13 h14 h15 h16 h17 h18 h19 h20 h21 h22 h23; rfl

theorem GC_of_eq (c : Dev nD) (x0 : A2 131072 128) (x1 : A2 131072 128) (x2 : A2 131072 128) (x3 : A2 131072 128) (x4 : A2 131072 128) (x5 : A2 128 128) (x6 : A2 128 128) (x7 : A2 128 128) (x8 : A2 128 128) (x9 : A2 128 128) (x10 : A2 128 128) (x11 : A2 128 128) (x12 : A2 128 128) (x13 : A2 128 128) (x14 : A2 128 128) (x15 : A2 128 128) (x16 : A2 128 128) (x17 : A2 128 128) (x18 : A2 128 128) (x19 : A1 128) (x20 : A1 128) (x21 : A1 128) (x22 : A1 128) (x23 : A1 128)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) (h7 : x7 = m ((c : Thread nD τ).loc main_arg7)) (h8 : x8 = m ((c : Thread nD τ).loc main_arg8)) (h9 : x9 = m ((c : Thread nD τ).loc main_arg9)) (h10 : x10 = m ((c : Thread nD τ).loc main_arg10)) (h11 : x11 = m ((c : Thread nD τ).loc main_arg11)) (h12 : x12 = m ((c : Thread nD τ).loc main_arg12)) (h13 : x13 = m ((c : Thread nD τ).loc main_arg13)) (h14 : x14 = m ((c : Thread nD τ).loc main_arg14)) (h15 : x15 = m ((c : Thread nD τ).loc main_arg15)) (h16 : x16 = m ((c : Thread nD τ).loc main_arg16)) (h17 : x17 = m ((c : Thread nD τ).loc main_arg17)) (h18 : x18 = m ((c : Thread nD τ).loc main_arg18)) (h19 : x19 = m ((c : Thread nD τ).loc main_arg19)) (h20 : x20 = m ((c : Thread nD τ).loc main_arg20)) (h21 : x21 = m ((c : Thread nD τ).loc main_arg21)) (h22 : x22 = m ((c : Thread nD τ).loc main_arg22)) (h23 : x23 = m ((c : Thread nD τ).loc main_arg23)) : outC x0 x1 x2 x3 x4 x5 x6 x7 x8 x9 x10 x11 x12 x13 x14 x15 x16 x17 x18 x19 x20 x21 x22 x23 = GC m c := by
  subst h0 h1 h2 h3 h4 h5 h6 h7 h8 h9 h10 h11 h12 h13 h14 h15 h16 h17 h18 h19 h20 h21 h22 h23; rfl

end Cert.KernelIdeal.CellOut

end
-- ==== Proof.RefImports.lean ====
/- The reference's generated run and its read-at-an-index lemmas, gathered under one import. -/
import proofs.«122884_j44976897523967_2_alg».proof.Proof.Gen.ReferenceIdeal.Run
import proofs.«122884_j44976897523967_2_alg».proof.Proof.Gen.ReferenceIdeal.Read
-- ==== Proof.RefCell.lean ====
/-
  The reference program's two results, read entry by entry, are the tree-LSTM cell in its split form.

  Each gate's pre-activation stage is three plain products of an N×128 array with a 128×128 matrix, summed left to
  right, plus a bias row spread down the rows; read at entry (i, j) that is
      ((Σ_k p(i,k)·Wp(k,j) + Σ_k hl(i,k)·Wl(k,j)) + Σ_k hr(i,k)·Wr(k,j)) + b(j).
  The sigmoid is spelt 1 / (1 + exp(−x)) with the constant one an f32 word; on the extended reals that is the
  logistic function by definition.  The cell state is σ(pre₀)·tanh(pre₄) + σ(pre₁)·cl + σ(pre₂)·cr and the hidden
  state σ(pre₃)·tanh(c).
-/
import proofs.«122884_j44976897523967_2_alg».proof.Proof.RefImports
import proofs.«122884_j44976897523967_2_alg».proof.Proof.Spec
import Idealize.ShloMosaic.Lib.IdealHost

noncomputable section

namespace Cert.ReferenceIdeal.RefValue

open Cert.ReferenceIdeal Cert.ReferenceIdeal.Gen Idealize.ShloMosaic Idealize.ShloMosaic.TcCoe Idealize.SL.Sem
open Cert.ReferenceIdeal.Read Cert.TreeCell

/-- An N×128 array of extended reals (N = 131072). -/
abbrev Big : Type := (⟨S131072x128, .f32⟩ : BufTy).Contents (Elt Ideal)
/-- A 128×128 matrix of extended reals. -/
abbrev Wt : Type := (⟨S128x128, .f32⟩ : BufTy).Contents (Elt Ideal)
/-- A row of 128 extended reals. -/
abbrev Row : Type := (⟨S128, .f32⟩ : BufTy).Contents (Elt Ideal)

/-- A plain product of an N×128 array with a 128×128 matrix, read at entry (i, j). -/
theorem dot_apply (x : Big) (w : Wt) (i : Fin 131072) (j : Fin 128) :
    val_main_v0 (F := Ideal) x w (ValueIdx.ix2 i j) = ∑ k : Fin 128, mat x i k * mat w k j := by
  rw [val_main_v0_apply]
  refine Finset.sum_congr rfl fun k _ => ?_
  have el : lidx_main_v0 (ValueIdx.ix2 i j) k = ValueIdx.ix2 i k :=
    funext fun a => by match a with | ⟨0, _⟩ => rfl | ⟨1, _⟩ => rfl
  have er : ridx_main_v0 (ValueIdx.ix2 i j) k = ValueIdx.ix2 k j :=
    funext fun a => by match a with | ⟨0, _⟩ => rfl | ⟨1, _⟩ => rfl
  rw [el, er]; rfl

/-- A bias row spread down the rows of an N×128 array, read at entry (i, j), is the row's entry j. -/
theorem bias_apply (b : Row) (i : Fin 131072) (j : Fin 128) :
    val_main_v6 (F := Ideal) b (ValueIdx.ix2 i j) = vec b j := by
  rw [val_main_v6_apply, val_main_v5_apply]
  show b _ = b _
  congr 1
  funext a
  match a with | ⟨0, _⟩ => rfl

/-- One gate's pre-activation stage read at entry (i, j). -/
theorem gate_apply (hl hr p : Big) (wp wl wr : Wt) (b : Row) (i : Fin 131072) (j : Fin 128) :
    val_main_v7 (F := Ideal) hl hr p wp wl wr b (ValueIdx.ix2 i j)
      = gatePre (mat p) (mat hl) (mat hr) (mat wp) (mat wl) (mat wr) (vec b) i j := by
  rw [val_main_v7_apply, val_main_v4_apply, val_main_v2_apply, bias_apply,
    show val_main_v1 (F := Ideal) hl wl = val_main_v0 (F := Ideal) hl wl from rfl,
    show val_main_v3 (F := Ideal) hr wr = val_main_v0 (F := Ideal) hr wr from rfl,
    dot_apply, dot_apply, dot_apply]
  rfl

/-- One over one plus the exponential of the negated pre-activation is the logistic function of it. -/
theorem sig_apply (hl hr p : Big) (wp wl wr : Wt) (b : Row) (idx : S131072x128.Idx) :
    val_main_v13 (F := Ideal) hl hr p wp wl wr b idx
      = Ideal.logistic (val_main_v7 (F := Ideal) hl hr p wp wl wr b idx) := by
  rw [val_main_v13_apply, val_main_v12_apply, val_main_cst_0_apply, val_main_v11_apply, val_main_v10_apply,
    val_main_cst_apply, val_main_v9_apply, val_main_v8_apply]
  show Ideal.div (Ideal.ofBits .f32 0x3F800000#32) (Ideal.ofBits .f32 0x3F800000#32 + Ideal.exp (-_)) = _
  rw [Ideal.ofBits_one_f32]
  rfl

/-- The new cell state: the stage that the second result is, read entry by entry. -/
theorem result_c (hl cl hr cr p : Big) (w5 w6 w7 w8 w9 w10 w11 w12 w13 w14 w15 w16 w17 w18 : Wt)
    (b19 b20 b21 b22 b23 : Row) :
    val_main_v68 (F := Ideal) hl cl hr cr p w5 w6 w7 w8 w9 w10 w11 w12 w16 w17 w18 b19 b20 b21 b23
      = outC hl cl hr cr p w5 w6 w7 w8 w9 w10 w11 w12 w13 w14 w15 w16 w17 w18 b19 b20 b21 b22 b23 := by
  funext idx
  obtain ⟨i, j, rfl⟩ : ∃ (i : Fin 131072) (j : Fin 128), idx = ValueIdx.ix2 i j :=
    ⟨idx 0, idx 1, ValueIdx.eq_ix2 idx⟩
  rw [val_main_v68_apply, val_main_v66_apply, val_main_v64_apply, val_main_v65_apply, val_main_v67_apply,
    val_main_v63_apply,
    show val_main_v27 (F := Ideal) hl hr p w8 w9 w10 b20 = val_main_v13 (F := Ideal) hl hr p w8 w9 w10 b20 from rfl,
    show val_main_v40 (F := Ideal) hl hr p w8 w11 w12 b21 = val_main_v13 (F := Ideal) hl hr p w8 w11 w12 b21 from rfl,
    show val_main_v62 (F := Ideal) hl hr p w16 w17 w18 b23 = val_main_v7 (F := Ideal) hl hr p w16 w17 w18 b23 from rfl,
    sig_apply, sig_apply, sig_apply, gate_apply, gate_apply, gate_apply, gate_apply]
  rfl

/-- The new hidden state: the stage that the first result is, read entry by entry. -/
theorem result_h (hl cl hr cr p : Big) (w5 w6 w7 w8 w9 w10 w11 w12 w13 w14 w15 w16 w17 w18 : Wt)
    (b19 b20 b21 b22 b23 : Row) :
    val_main_v70 (F := Ideal) hl cl hr cr p w5 w6 w7 w8 w9 w10 w11 w12 w13 w14 w15 w16 w17 w18 b19 b20 b21 b22 b23
      = outH hl cl hr cr p w5 w6 w7 w8 w9 w10 w11 w12 w13 w14 w15 w16 w17 w18 b19 b20 b21 b22 b23 := by
  funext idx
  obtain ⟨i, j, rfl⟩ : ∃ (i : Fin 131072) (j : Fin 128), idx = ValueIdx.ix2 i j :=
    ⟨idx 0, idx 1, ValueIdx.eq_ix2 idx⟩
  rw [val_main_v70_apply, val_main_v69_apply,
    result_c hl cl hr cr p w5 w6 w7 w8 w9 w10 w11 w12 w13 w14 w15 w16 w17 w18 b19 b20 b21 b22 b23,
    show val_main_v54 (F := Ideal) hl hr p w13 w14 w15 b22 = val_main_v13 (F := Ideal) hl hr p w13 w14 w15 b22 from rfl,
    sig_apply, gate_apply]
  rfl

/-- Every weakly fair execution of the reference terminates with its first result the cell's new hidden state, its
    second the new cell state, of the twenty-four argument arrays, and the arguments unchanged. -/
theorem run_cell (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70) = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v68) = outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run (defs (F := Ideal)) _ _).mono (fun _ h c =>
      ⟨(h c).1.trans ((val_main_v70_eq (F := Ideal) m c).trans (result_h _ _ _ _ _ _ _ _ _ _ _ _ _ _ _ _ _ _ _ _ _ _ _ _)),
       (h c).2.1.trans ((val_main_v68_eq (F := Ideal) _ _ _ _ _ _ _ _ _ _ _ _ _ _ _ _ _ _ _ _).trans
          (result_c _ _ _ _ _ _ _ _ _ _ _ _ _ (m ((c.tc : Thread nD τ).loc main_arg13)) (m ((c.tc : Thread nD τ).loc main_arg14)) (m ((c.tc : Thread nD τ).loc main_arg15)) _ _ _ _ _ _ (m ((c.tc : Thread nD τ).loc main_arg22)) _)),
       (h c).2.2⟩)
    (Cert.ReferenceIdeal.Value.run (F := Ideal) m ρ)

end Cert.ReferenceIdeal.RefValue

end
-- ==== Proof.lean ====
/-
  The certificate of the batched binary tree-LSTM cell kernel against its plain reference.

  Both programs take the child hidden and cell rows hl, cl, hr, cr and the parent input row p of 131072 nodes (width
  128), fourteen 128×128 weights and five bias rows, and return the new hidden and cell rows.  The reference forms each
  of the five gates' pre-activations from three separate products, (p·Wp + hl·Wl) + hr·Wr + b.  The kernel joins the
  weights on the host into one 384×640 matrix and one 1×640 bias row and, per tile of 2048 nodes, multiplies the joined
  row [p | hl | hr] by it once, adds the bias row and slices the gates out of the 640 columns.  Over the extended reals a
  change of float format is the identity, the logistic function is 1 / (1 + exp(−x)) in both spellings, and a sum over
  384 positions is three sums over 128 (addition there is associative and commutative with no finiteness needed); so
  the two programs end with the same two arrays.

  The three frames: the kernel's program, as printed and idealized, is seven host operations and one pipelined region
  whose body loads whole blocks and stores whole blocks; the reference is host operations only.  The ideal pass
  rewrote nothing, so the preservation claim is trivial.
-/
import proofs.«122884_j44976897523967_2_alg».proof.Defs
import proofs.«122884_j44976897523967_2_alg».proof.Proof.Gen.Kernel
import proofs.«122884_j44976897523967_2_alg».proof.Proof.Gen.KernelIdeal
import proofs.«122884_j44976897523967_2_alg».proof.Proof.Gen.ReferenceIdeal
import proofs.«122884_j44976897523967_2_alg».proof.Proof.Gen.Pre_finite_inputs
import proofs.«122884_j44976897523967_2_alg».proof.Proof.CellFrame
import proofs.«122884_j44976897523967_2_alg».proof.Proof.CellFrameIdeal
import proofs.«122884_j44976897523967_2_alg».proof.Proof.CellOut
import proofs.«122884_j44976897523967_2_alg».proof.Proof.RefCell
import Idealize.ShloMosaic.Adequacy
import Idealize.ShloMosaic.Init

noncomputable section

namespace Cert.Proof

open Idealize.ShloMosaic Idealize.SL.Sem

/-- The kernel's program as printed runs to the end, faults nowhere and keeps its arguments. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.RefValue.run_cell m ρ)

/-- The ideal pass rewrote nothing: the idealization is the program's own text read over the extended reals. -/
theorem preserves : Cert.preserves_Kernel_KernelIdeal := trivial

/-- Over the extended reals both programs end with the tree-LSTM cell's hidden and cell states of their arguments:
    the kernel by one product with the joined weights per tile of rows, the reference by three products per gate;
    a sum over 384 positions is three sums over 128. -/
theorem algebraic : Cert.algebraic_KernelIdeal_ReferenceIdeal := by
  intro m ρ m' ρ' _ hagree
  refine ⟨fun c => Cert.KernelIdeal.CellOut.GH m c, fun c => Cert.KernelIdeal.CellOut.GC m c, Cert.KernelIdeal.CellOut.run m ρ, ?_⟩
  refine (θ_run Cert.ReferenceIdeal.defs _ _).mono (fun _ h c => ?_) (Cert.ReferenceIdeal.RefValue.run_cell m' ρ')
  obtain ⟨a0, a1, a2, a3, a4, a5, a6, a7, a8, a9, a10, a11, a12, a13, a14, a15, a16, a17, a18, a19, a20, a21, a22, a23⟩ := hagree c
  refine ⟨(h c).1.trans ?_, (h c).2.1.trans ?_, (h c).2.2⟩
  · exact Cert.KernelIdeal.CellOut.GH_of_eq m c _ _ _ _ _ _ _ _ _ _ _ _ _ _ _ _ _ _ _ _ _ _ _ _ a0 a1 a2 a3 a4 a5 a6 a7 a8 a9 a10 a11 a12 a13 a14 a15 a16 a17 a18 a19 a20 a21 a22 a23
  · exact Cert.KernelIdeal.CellOut.GC_of_eq m c _ _ _ _ _ _ _ _ _ _ _ _ _ _ _ _ _ _ _ _ _ _ _ _ a0 a1 a2 a3 a4 a5 a6 a7 a8 a9 a10 a11 a12 a13 a14 a15 a16 a17 a18 a19 a20 a21 a22 a23

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
